-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x12288 : Shape := ⟨2, ![1024, 12288]⟩
abbrev S1024x64 : Shape := ⟨2, ![1024, 64]⟩
abbrev S_ : Shape := ⟨0, ![]⟩

class Facts : Prop where
  bcast_S_S1024x12288 : S_.BroadcastsInDim S1024x12288 (![] : Fin 0 → Fin S1024x12288.rank)
  reducesTo_S1024x12288_S_d0_1 : S1024x12288.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S1024x64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  main_v23

def fn {F : FTy → Type} [FloatOps F] (main_arg0 : FVec F S1024x12288 .f32) (main_arg1 : FVec F S1024x12288 .f32) (main_arg2 : FVec F S1024x12288 .f32) (main_arg3 : FVec F S1024x64 .f32) (main_arg4 : FVec F S1024x64 .f32) : IVec S_ 1 :=
  let main_v0 : FVec F S1024x12288 .f32 := Host.absf main_arg0
  let main_cst : FVec F S_ .f32 := constant S_ .f32 0x7F800000#32
  let main_v1 : FVec F S1024x12288 .f32 := broadcastInDim S1024x12288 ![] bcast_S_S1024x12288 main_cst
  let main_v2 : IVec S1024x12288 1 := cmpf .olt main_v0 main_v1
  let main_c : IVec S_ 1 := constantI S_ 1 1#1
  let main_v3 : IVec S_ 1 := (fun x v => Host.reduce IntOp.andi x v reducesTo_S1024x12288_S_d0_1 h_S_) main_v2 main_c
  let main_v4 : FVec F S1024x12288 .f32 := Host.absf main_arg1
  let main_cst_0 : FVec F S_ .f32 := constant S_ .f32 0x7F800000#32
  let main_v5 : FVec F S1024x12288 .f32 := broadcastInDim S1024x12288 ![] bcast_S_S1024x12288 main_cst_0
  let main_v6 : IVec S1024x12288 1 := cmpf .olt main_v4 main_v5
  let main_c_1 : IVec S_ 1 := constantI S_ 1 1#1
  let main_v7 : IVec S_ 1 := (fun x v => Host.reduce IntOp.andi x v reducesTo_S1024x12288_S_d0_1 h_S_) main_v6 main_c_1
  let main_v8 : IVec S_ 1 := andi main_v3 main_v7
  let main_v9 : FVec F S1024x12288 .f32 := Host.absf main_arg2
  let main_cst_2 : FVec F S_ .f32 := constant S_ .f32 0x7F800000#32
  let main_v10 : FVec F S1024x12288 .f32 := broadcastInDim S1024x12288 ![] bcast_S_S1024x12288 main_cst_2
  let main_v11 : IVec S1024x12288 1 := cmpf .olt main_v9 main_v10
  let main_c_3 : IVec S_ 1 := constantI S_ 1 1#1
  let main_v12 : IVec S_ 1 := (fun x v => Host.reduce IntOp.andi x v reducesTo_S1024x12288_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_v13 main_v16
-- ==== Kernel.lean ====
abbrev S1024x12288 : Shape := ⟨2, ![1024, 12288]⟩
abbrev S1024x64 : Shape := ⟨2, ![1024, 64]⟩
abbrev S1024 : Shape := ⟨1, ![1024]⟩
abbrev S128x64 : Shape := ⟨2, ![128, 64]⟩
abbrev S128x1536 : Shape := ⟨2, ![128, 1536]⟩
abbrev S128 : Shape := ⟨1, ![128]⟩
abbrev S128x1 : Shape := ⟨2, ![128, 1]⟩
abbrev S64x128 : Shape := ⟨2, ![64, 128]⟩
abbrev S1x64x128 : Shape := ⟨3, ![1, 64, 128]⟩
abbrev S128x64x1 : Shape := ⟨3, ![128, 64, 1]⟩
abbrev S128x64x128 : Shape := ⟨3, ![128, 64, 128]⟩
abbrev S128x128 : Shape := ⟨2, ![128, 128]⟩
abbrev S_ : Shape := ⟨0, ![]⟩

abbrev nBuf : Space → Nat
  | .hbm => 63
  | .vmem => 23
  | .smem => 0
  | _ => 0

abbrev bufTy : (tb : Table) → Fin (tcTables nBuf tb) → BufTy
  | .hbm, ⟨0, _⟩ => ⟨S1024x12288, .f32⟩
  | .hbm, ⟨1, _⟩ => ⟨S1024x12288, .f32⟩
  | .hbm, ⟨2, _⟩ => ⟨S1024x12288, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024x64, .f32⟩
  | .hbm, ⟨15, _⟩ => ⟨S1024x64, .f32⟩
  | .hbm, ⟨16, _⟩ => ⟨S_, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S1024x64, .f32⟩
  | .hbm, ⟨21, _⟩ => ⟨S_, .f32⟩
  | .hbm, ⟨22, _⟩ => ⟨S1024x64, .f32⟩
  | .hbm, ⟨23, _⟩ => ⟨S1024x64, .f32⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128x64, .f32⟩
  | .local _ .vmem, ⟨19, _⟩ => ⟨S128x64, .f32⟩
  | .local _ .vmem, ⟨20, _⟩ => ⟨S128x1, .f32⟩
  | .local _ .vmem, ⟨21, _⟩ => ⟨S128x1, .f32⟩
  | .local _ .vmem, ⟨22, _⟩ => ⟨S128x1, .f32⟩
  | _, _ => ⟨S1024x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_v17 : Ref sig .tc := ⟨.hbm, 35, rfl⟩
abbrev main_cst_8 : Ref sig .tc := ⟨.hbm, 36, rfl⟩
abbrev main_v18 : Ref sig .tc := ⟨.hbm, 37, rfl⟩
abbrev main_cst_9 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_10 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_12 : Ref sig .tc := ⟨.hbm, 58, rfl⟩
abbrev main_v36 : Ref sig .tc := ⟨.hbm, 59, rfl⟩
abbrev main_cst_13 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v91 : BitVec 1 := Scalar.cmpi .eq arg1 c7_i32
  let v92 : BitVec 32 := Scalar.extui v91
  let c0_i32_46 : BitVec 32 := 0#32
  let v93 : BitVec 1 := Scalar.cmpi .ne v92 c0_i32_46
  v93

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x1536_S128x1536_0_0 : ∀ a, (![0, 0] : Fin 2 → Nat) a + S128x1536.size a ≤ S128x1536.size a
  h_S128x1536 : 0 < S128x1536.numel
  reduces_S128x1536_S128 : S128x1536.Reduces [1] S128
  shapeCasts_S128_S128x1 : S128.ShapeCasts S128x1
  transposes_S128x64_p1_0_S64x128 : S128x64.Transposes [1, 0] S64x128
  shapeCasts_S64x128_S1x64x128 : S64x128.ShapeCasts S1x64x128
  shapeCasts_S128x64_S128x64x1 : S128x64.ShapeCasts S128x64x1
  broadcasts_S128x64x1_S128x64x128 : S128x64x1.Broadcasts S128x64x128
  broadcasts_S1x64x128_S128x64x128 : S1x64x128.Broadcasts S128x64x128
  reduces_S128x64x128_S128x64 : S128x64x128.Reduces [2] S128x64
  reduces_S128x64x128_S128x128 : S128x64x128.Reduces [1] S128x128
  reduces_S128x128_S128 : S128x128.Reduces [1] S128
  broadcasts_S128x1_S128x128 : S128x1.Broadcasts S128x128
  shapeCasts_S128x1_S128 : S128x1.ShapeCasts S128
  inb_S128_S128_0 : ∀ a, (![0] : Fin 1 → Nat) a + S128.size a ≤ S128.size a
  h_S128 : 0 < S128.numel
  reducesTo_S1024_S_d0 : S1024.ReducesTo [0] S_
  h_S_ : 0 < S_.numel
  bcast_S_S1024x64 : S_.BroadcastsInDim S1024x64 (![] : Fin 0 → Fin S1024x64.rank)
  reducesTo_S1024x64_S1024_d1 : S1024x64.ReducesTo [1] S1024
  reducesTo_S1024x64_S_d0_1 : S1024x64.ReducesTo [0, 1] S_
  bcast_S_S1024 : S_.BroadcastsInDim S1024 (![] : Fin 0 → Fin S1024.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S1024x64.size a
  hwx0_0 : ∀ i : grid0.Coords, EltTy.bits .f32 = 32 ∨ (Rect.block (s := S1024x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S1024x64.size a
  hwx0_1 : ∀ i : grid0.Coords, EltTy.bits .f32 = 32 ∨ (Rect.block (s := S1024x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1536.size a ≤ S1024x12288.size a
  hwx0_2 : ∀ i : grid0.Coords, EltTy.bits .f32 = 32 ∨ (Rect.block (s := S1024x12288) S128x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1536.size a ≤ S1024x12288.size a
  hwx0_3 : ∀ i : grid0.Coords, EltTy.bits .f32 = 32 ∨ (Rect.block (s := S1024x12288) S128x1536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S1024x64.size a
  hwx0_4 : ∀ i : grid0.Coords, EltTy.bits .f32 = 32 ∨ (Rect.block (s := S1024x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S1024x64.size a
  hwx0_5 : ∀ i : grid0.Coords, EltTy.bits .f32 = 32 ∨ (Rect.block (s := S1024x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S1024.size a
  hwx0_6 : ∀ i : grid0.Coords, EltTy.bits .f32 = 32 ∨ (Rect.block (s := S1024) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S1024.size a
  hwx0_7 : ∀ i : grid0.Coords, EltTy.bits .f32 = 32 ∨ (Rect.block (s := S1024) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S1024.size a
  hwx0_8 : ∀ i : grid0.Coords, EltTy.bits .f32 = 32 ∨ (Rect.block (s := S1024) S128.size (cc0_transform_8 i) (hinb0_8 i)).WholeWords (EltTy.packing .f32)

variable [Facts₀]

abbrev win0_0 : Pipeline.Window sig grid0 :=
  Pipeline.Window.ofSpec (Memref.whole main_arg3) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x1536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x1536.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S128x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S128x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_4) S128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S1024x12288 : Shape := ⟨2, ![1024, 12288]⟩
abbrev S1024x64 : Shape := ⟨2, ![1024, 64]⟩
abbrev S_ : Shape := ⟨0, ![]⟩
abbrev S1024 : Shape := ⟨1, ![1024]⟩
abbrev S1024x1x64 : Shape := ⟨3, ![1024, 1, 64]⟩
abbrev S1x1024x64 : Shape := ⟨3, ![1, 1024, 64]⟩
abbrev S1024x1024x64 : Shape := ⟨3, ![1024, 1024, 64]⟩
abbrev S1024x1024 : Shape := ⟨2, ![1024, 1024]⟩
abbrev S1024x1 : Shape := ⟨2, ![1024, 1]⟩

abbrev nBuf : Space → Nat
  | .hbm => 110
  | .vmem => 0
  | .smem => 0
  | _ => 0

abbrev bufTy : (tb : Table) → Fin (tcTables nBuf tb) → BufTy
  | .hbm, ⟨0, _⟩ => ⟨S1024x12288, .f32⟩
  | .hbm, ⟨1, _⟩ => ⟨S1024x12288, .f32⟩
  | .hbm, ⟨2, _⟩ => ⟨S1024x12288, .f32⟩
  | .hbm, ⟨3, _⟩ => ⟨S1024x64, .f32⟩
  | .hbm, ⟨4, _⟩ => ⟨S1024x64, .f32⟩
  | .hbm, ⟨5, _⟩ => ⟨S_, .f32⟩
  | .hbm, ⟨6, _⟩ => ⟨S1024x12288, .f32⟩
  | .hbm, ⟨7, _⟩ => ⟨S1024x12288, .f32⟩
  | .hbm, ⟨8, _⟩ => ⟨S1024x12288, .f32⟩
  | .hbm, ⟨9, _⟩ => ⟨S1024x12288, .f32⟩
  | .hbm, ⟨10, _⟩ => ⟨S_, .f32⟩
  | .hbm, ⟨11, _⟩ => ⟨S1024x12288, .f32⟩
  | .hbm, ⟨12, _⟩ => ⟨S1024x12288, .f32⟩
  | .hbm, ⟨13, _⟩ => ⟨S_, .f32⟩
  | .hbm, ⟨14, _⟩ => ⟨S1024x12288, .f32⟩
  | .hbm, ⟨15, _⟩ => ⟨S1024x12288, .f32⟩
  | .hbm, ⟨16, _⟩ => ⟨S_, .f32⟩
  | .hbm, ⟨17, _⟩ => ⟨S1024x12288, .f32⟩
  | .hbm, ⟨18, _⟩ => ⟨S1024x12288, .f32⟩
  | .hbm, ⟨19, _⟩ => ⟨S1024x12288, .f32⟩
  | .hbm, ⟨20, _⟩ => ⟨S1024x12288, .f32⟩
  | .hbm, ⟨21, _⟩ => ⟨S1024x12288, .f32⟩
  | .hbm, ⟨22, _⟩ => ⟨S_, .f32⟩
  | .hbm, ⟨23, _⟩ => ⟨S1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1024x64, .f32⟩
  | .hbm, ⟨29, _⟩ => ⟨S1024x64, .f32⟩
  | .hbm, ⟨30, _⟩ => ⟨S_, .f32⟩
  | .hbm, ⟨31, _⟩ => ⟨S1024x64, .f32⟩
  | .hbm, ⟨32, _⟩ => ⟨S1024x64, .f32⟩
  | .hbm, ⟨33, _⟩ => ⟨S1024x64, .f32⟩
  | .hbm, ⟨34, _⟩ => ⟨S1024x64, .f32⟩
  | .hbm, ⟨35, _⟩ => ⟨S_, .f32⟩
  | .hbm, ⟨36, _⟩ => ⟨S1024x64, .f32⟩
  | .hbm, ⟨37, _⟩ => ⟨S1024x64, .f32⟩
  | .hbm, ⟨38, _⟩ => ⟨S_, .f32⟩
  | .hbm, ⟨39, _⟩ => ⟨S1024x64, .f32⟩
  | .hbm, ⟨40, _⟩ => ⟨S1024x64, .f32⟩
  | .hbm, ⟨41, _⟩ => ⟨S_, .f32⟩
  | .hbm, ⟨42, _⟩ => ⟨S1024, .f32⟩
  | .hbm, ⟨43, _⟩ => ⟨S1024x1x64, .f32⟩
  | .hbm, ⟨44, _⟩ => ⟨S1x1024x64, .f32⟩
  | .hbm, ⟨45, _⟩ => ⟨S1024x1x64, .f32⟩
  | .hbm, ⟨46, _⟩ => ⟨S1x1024x64, .f32⟩
  | .hbm, ⟨47, _⟩ => ⟨S_, .f32⟩
  | .hbm, ⟨48, _⟩ => ⟨S1x1024x64, .f32⟩
  | .hbm, ⟨49, _⟩ => ⟨S1x1024x64, .f32⟩
  | .hbm, ⟨50, _⟩ => ⟨S1024x1024x64, .f32⟩
  | .hbm, ⟨51, _⟩ => ⟨S1024x1024x64, .f32⟩
  | .hbm, ⟨52, _⟩ => ⟨S1024x1024x64, .f32⟩
  | .hbm, ⟨53, _⟩ => ⟨S1024x1024x64, .f32⟩
  | .hbm, ⟨54, _⟩ => ⟨S1024x1024x64, .f32⟩
  | .hbm, ⟨55, _⟩ => ⟨S_, .f32⟩
  | .hbm, ⟨56, _⟩ => ⟨S1024x1024x64, .f32⟩
  | .hbm, ⟨57, _⟩ => ⟨S1024x1024x64, .f32⟩
  | .hbm, ⟨58, _⟩ => ⟨S_, .f32⟩
  | .hbm, ⟨59, _⟩ => ⟨S1024x1024x64, .f32⟩
  | .hbm, ⟨60, _⟩ => ⟨S1024x1024x64, .f32⟩
  | .hbm, ⟨61, _⟩ => ⟨S_, .f32⟩
  | .hbm, ⟨62, _⟩ => ⟨S1024x64, .f32⟩
  | .hbm, ⟨63, _⟩ => ⟨S1024x1x64, .f32⟩
  | .hbm, ⟨64, _⟩ => ⟨S1024x1024x64, .f32⟩
  | .hbm, ⟨65, _⟩ => ⟨S1024x1024x64, .f32⟩
  | .hbm, ⟨66, _⟩ => ⟨S1024x1024x64, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1024x1x64, .f32⟩
  | .hbm, ⟨71, _⟩ => ⟨S1024x1x64, .f32⟩
  | .hbm, ⟨72, _⟩ => ⟨S1024x64, .f32⟩
  | .hbm, ⟨73, _⟩ => ⟨S_, .f32⟩
  | .hbm, ⟨74, _⟩ => ⟨S1024x64, .f32⟩
  | .hbm, ⟨75, _⟩ => ⟨S1024x64, .f32⟩
  | .hbm, ⟨76, _⟩ => ⟨S_, .f32⟩
  | .hbm, ⟨77, _⟩ => ⟨S1024, .f32⟩
  | .hbm, ⟨78, _⟩ => ⟨S_, .f32⟩
  | .hbm, ⟨79, _⟩ => ⟨S1024x1024, .f32⟩
  | .hbm, ⟨80, _⟩ => ⟨S_, .f32⟩
  | .hbm, ⟨81, _⟩ => ⟨S1024, .f32⟩
  | .hbm, ⟨82, _⟩ => ⟨S1024x1, .f32⟩
  | .hbm, ⟨83, _⟩ => ⟨S1024x1024, .f32⟩
  | .hbm, ⟨84, _⟩ => ⟨S1024x1024, .f32⟩
  | .hbm, ⟨85, _⟩ => ⟨S1024x1024, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S1024x1, .f32⟩
  | .hbm, ⟨90, _⟩ => ⟨S1024x1, .f32⟩
  | .hbm, ⟨91, _⟩ => ⟨S1024, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S1024, .f32⟩
  | .hbm, ⟨96, _⟩ => ⟨S1024, .f32⟩
  | .hbm, ⟨97, _⟩ => ⟨S1024, .f32⟩
  | .hbm, ⟨98, _⟩ => ⟨S1024, .f32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S1024, .f32⟩
  | .hbm, ⟨104, _⟩ => ⟨S1024, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S1024x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_cst_16 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_19 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_20 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_21 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_22 : Ref sig .tc := ⟨.hbm, 105, rfl⟩
abbrev main_v77 : Ref sig .tc := ⟨.hbm, 106, rfl⟩
abbrev main_cst_23 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  bcast_S_S1024x12288 : S_.BroadcastsInDim S1024x12288 (![] : Fin 0 → Fin S1024x12288.rank)
  reducesTo_S1024x12288_S1024_d1 : S1024x12288.ReducesTo [1] S1024
  h_S_ : 0 < S_.numel
  reducesTo_S1024_S_d0 : S1024.ReducesTo [0] S_
  bcast_S_S1024x64 : S_.BroadcastsInDim S1024x64 (![] : Fin 0 → Fin S1024x64.rank)
  reducesTo_S1024x64_S1024_d1 : S1024x64.ReducesTo [1] S1024
  bcast_S1024x64_S1024x1x64_0_2 : S1024x64.BroadcastsInDim S1024x1x64 (![0, 2] : Fin 2 → Fin S1024x1x64.rank)
  bcast_S1024x64_S1x1024x64_1_2 : S1024x64.BroadcastsInDim S1x1024x64 (![1, 2] : Fin 2 → Fin S1x1024x64.rank)
  bcast_S_S1x1024x64 : S_.BroadcastsInDim S1x1024x64 (![] : Fin 0 → Fin S1x1024x64.rank)
  bcast_S1024x1x64_S1024x1024x64_0_1_2 : S1024x1x64.BroadcastsInDim S1024x1024x64 (![0, 1, 2] : Fin 3 → Fin S1024x1024x64.rank)
  bcast_S1x1024x64_S1024x1024x64_0_1_2 : S1x1024x64.BroadcastsInDim S1024x1024x64 (![0, 1, 2] : Fin 3 → Fin S1024x1024x64.rank)
  bcast_S_S1024x1024x64 : S_.BroadcastsInDim S1024x1024x64 (![] : Fin 0 → Fin S1024x1024x64.rank)
  reducesTo_S1024x1024x64_S1024x64_d1 : S1024x1024x64.ReducesTo [1] S1024x64
  reducesTo_S1024x1024x64_S_d0_1_2 : S1024x1024x64.ReducesTo [0, 1, 2] S_
  bcast_S_S1024x1x64 : S_.BroadcastsInDim S1024x1x64 (![] : Fin 0 → Fin S1024x1x64.rank)
  shapeCasts_S1024x1x64_S1024x64 : S1024x1x64.ShapeCasts S1024x64
  reducesTo_S1024x1024x64_S1024x1024_d2 : S1024x1024x64.ReducesTo [2] S1024x1024
  reducesTo_S1024x1024_S1024_d1 : S1024x1024.ReducesTo [1] S1024
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S1024x1024_S_d0_1 : S1024x1024.ReducesTo [0, 1] S_
  bcast_S_S1024x1 : S_.BroadcastsInDim S1024x1 (![] : Fin 0 → Fin S1024x1.rank)
  shapeCasts_S1024x1_S1024 : S1024x1.ShapeCasts S1024
  bcast_S_S1024 : S_.BroadcastsInDim S1024 (![] : Fin 0 → Fin S1024.rank)

variable [Facts₀]

class Facts : Prop extends Facts₀ where

variable [Facts]
-- ==== Proof.Spec.lean ====
/-
  The two arrangements of the Beta-TCVAE loss this certificate joins, as plain functions of the four argument arrays
  that are read (the third argument, the decoder's log-variance, is read by neither side).

  Per sample i (1024 samples), latent coordinate d (64) and pixel p (12288):
    bern t x   = t·log(x + ε) + (1 − t)·log((1 − x) + ε)                       the Bernoulli log-likelihood of a pixel
    gauss z l  = −½·((l + z²/(eˡ + ε)) + c)                                    the Gaussian log-density, c the word of log 2π
    gaussK z l = (−½·l − c') − (½·z²)·(1/(eˡ + ε))                             the same, as the kernel spells it, c' the word of ½·log 2π
  and, with pair i j d = gauss (mean i d) (logvar j d):
    m1 i d = max_j pair i j d,   tot1 = Σ_{i,j,d} exp(pair i j d − m1 i d),   qzProd i = Σ_d ((log tot1 + m1 i d) − log NM)
    rowS i j = Σ_d pair i j d,   m2 i = max_j rowS i j,   tot2 = Σ_{i,j} exp(rowS i j − m2 i),   qz i = (log tot2 + m2 i) − log NM
  (each maximum along j only, each exp-sum over ALL axes). The loss is
    −(Σ_i (((px − (pz i − qz i)) − β·(qz i − qzProd i)) − (qzProd i − pz i)))/1024.

  The kernel reaches the same numbers in another order: the maxima and exp-sums by a running maximum and a rescaled
  running sum over eight blocks of 128 columns j (runMS), the pixel row sums over eight stripes of 1536 pixels (runAdd),
  and Σ_d ((A + m) − B) as 64·(A − B) + Σ_d m.
-/
import Idealize.ShloMosaic.PureOps.Ideal
import Idealize.ShloMosaic.Lib.ValueIdx

noncomputable section

namespace Cert.Tcvae

open Idealize.ShloMosaic Idealize.ShloMosaic.ValueIdx

/-! ## The float words, at their exact binary values -/

/-- ε, the word of 1e-7. -/
def tol : EReal := Ideal.ofBits .f32 0x33D6BF95#32
def one : EReal := Ideal.ofBits .f32 0x3F800000#32
def negHalf : EReal := Ideal.ofBits .f32 0xBF000000#32
def half : EReal := Ideal.ofBits .f32 0x3F000000#32
/-- The word of ½·log 2π the kernel subtracts. -/
def cHalf : EReal := Ideal.ofBits .f32 0x3F6B3F8E#32
/-- The word of log 2π the reference adds inside the halved bracket: the same mantissa, the exponent one more. -/
def cFull : EReal := Ideal.ofBits .f32 0x3FEB3F8E#32
/-- The word of log(1024 · 737280). -/
def logNM : EReal := Ideal.ofBits .f32 0x41A3899D#32
def n1024 : EReal := Ideal.ofBits .f32 0x44800000#32
def beta : EReal := Ideal.ofBits .f32 0x40C00000#32
def d64 : EReal := Ideal.ofBits .f32 0x42800000#32
def zero : EReal := Ideal.ofBits .f32 0x00000000#32
def negInf : EReal := Ideal.ofBits .f32 0xFF800000#32

abbrev PixArr : Type := (⟨2, ![1024, 12288]⟩ : Shape).Idx → EReal
abbrev LatArr : Type := (⟨2, ![1024, 64]⟩ : Shape).Idx → EReal

/-! ## The pointwise terms -/

def bern (t x : EReal) : EReal := t * Ideal.log (x + tol) + (one - t) * Ideal.log ((one - x) + tol)
def gauss (z l : EReal) : EReal := negHalf * ((l + Ideal.div (z * z) (Ideal.exp l + tol)) + cFull)
def gaussK (z l : EReal) : EReal := (negHalf * l - cHalf) - (half * (z * z)) * Ideal.div one (Ideal.exp l + tol)

/-- The last lines, the same on both sides. -/
def combine (px : EReal) (pz qzp qz : Fin 1024 → EReal) : EReal :=
  -(Ideal.div (∑ i : Fin 1024, (((px - (pz i - qz i)) - beta * (qz i - qzp i)) - (qzp i - pz i))) n1024)

/-! ## The reference's arrangement -/

section Reference

variable (tg xm : PixArr) (zm lv : LatArr)

def pxRow (i : Fin 1024) : EReal := ∑ p : Fin 12288, bern (tg (ix2 i p)) (xm (ix2 i p))
def px : EReal := Ideal.div (∑ i : Fin 1024, pxRow tg xm i) n1024
def pz (i : Fin 1024) : EReal := ∑ d : Fin 64, gauss (zm (ix2 i d)) (lv (ix2 i d))
def pair (i j : Fin 1024) (d : Fin 64) : EReal := gauss (zm (ix2 i d)) (lv (ix2 j d))
def m1 (i : Fin 1024) (d : Fin 64) : EReal := (Finset.univ : Finset (Fin 1024)).fold max ⊥ (fun j => pair zm lv i j d)
def tot1 : EReal := ∑ i : Fin 1024, ∑ j : Fin 1024, ∑ d : Fin 64, Ideal.exp (pair zm lv i j d - m1 zm lv i d)
def qzProd (i : Fin 1024) : EReal := ∑ d : Fin 64, ((Ideal.log (tot1 zm lv) + m1 zm lv i d) - logNM)
def rowS (i j : Fin 1024) : EReal := ∑ d : Fin 64, pair zm lv i j d
def m2 (i : Fin 1024) : EReal := (Finset.univ : Finset (Fin 1024)).fold max ⊥ (fun j => rowS zm lv i j)
def tot2 : EReal := ∑ i : Fin 1024, ∑ j : Fin 1024, Ideal.exp (rowS zm lv i j - m2 zm lv i)
def qz (i : Fin 1024) : EReal := (Ideal.log (tot2 zm lv) + m2 zm lv i) - logNM
def loss : EReal := combine (px tg xm) (pz zm lv) (qzProd zm lv) (qz zm lv)

end Reference

/-! ## The kernel's arrangement -/

/-- One step of the running maximum: the old maximum against the block's own. -/
def stepMax (m : EReal) (blk : Fin 128 → EReal) : EReal := max m ((Finset.univ : Finset (Fin 128)).fold max negInf blk)
/-- One step of the running exp-sum: the old sum rescaled to the new maximum, plus the block's terms. -/
def stepSum (m t : EReal) (blk : Fin 128 → EReal) : EReal :=
  t * Ideal.exp (m - stepMax m blk) + ∑ l : Fin 128, Ideal.exp (blk l - stepMax m blk)
/-- The running (maximum, exp-sum) after block k, from (−∞, 0). -/
def runMS (f : ℕ → Fin 128 → EReal) : ℕ → EReal × EReal
  | 0 => (stepMax negInf (f 0), stepSum negInf zero (f 0))
  | k + 1 => (stepMax (runMS f k).1 (f (k + 1)), stepSum (runMS f k).1 (runMS f k).2 (f (k + 1)))
/-- The running sum after stripe k, from 0. -/
def runAdd (f : ℕ → EReal) : ℕ → EReal
  | 0 => zero + f 0
  | k + 1 => runAdd f k + f (k + 1)

/-- Column l of block k (k = 0 … 7). -/
def colAt (k : ℕ) (l : Fin 128) : Fin 1024 := ⟨(128 * k + l.val) % 1024, Nat.mod_lt _ (by decide)⟩
/-- Pixel q of stripe k (k = 0 … 7). -/
def pixAt (k : ℕ) (q : Fin 1536) : Fin 12288 := ⟨(1536 * k + q.val) % 12288, Nat.mod_lt _ (by decide)⟩

section Kernel

variable (tg xm : PixArr) (zm lv : LatArr)

def pairK (i : Fin 1024) (d : Fin 64) (j : Fin 1024) : EReal := gaussK (zm (ix2 i d)) (lv (ix2 j d))
def ms1K (i : Fin 1024) (d : Fin 64) : EReal × EReal := runMS (fun k l => pairK zm lv i d (colAt k l)) 7
def rowSK (i j : Fin 1024) : EReal := ∑ d : Fin 64, pairK zm lv i d j
def ms2K (i : Fin 1024) : EReal × EReal := runMS (fun k l => rowSK zm lv i (colAt k l)) 7
def pxRowK (i : Fin 1024) : EReal :=
  runAdd (fun k => ∑ q : Fin 1536, bern (tg (ix2 i (pixAt k q))) (xm (ix2 i (pixAt k q)))) 7
def pxK : EReal := Ideal.div (∑ i : Fin 1024, pxRowK tg xm i) n1024
def tot1K : EReal := ∑ i : Fin 1024, ∑ d : Fin 64, (ms1K zm lv i d).2
def qzProdK (i : Fin 1024) : EReal := d64 * (Ideal.log (tot1K zm lv) - logNM) + ∑ d : Fin 64, (ms1K zm lv i d).1
def tot2K : EReal := ∑ i : Fin 1024, (ms2K zm lv i).2
def qzK (i : Fin 1024) : EReal := (Ideal.log (tot2K zm lv) + (ms2K zm lv i).1) - logNM
def lossK : EReal := combine (pxK tg xm) (pz zm lv) (qzProdK zm lv) (qzK zm lv)

end Kernel

end Cert.Tcvae

end
-- ==== Proof.Blocks.lean ====
/-
  The input windows' blocks, read off the argument arrays. The grid is 8 × 8: point t visits row block t / 8 and
  column block t % 8. Window 0 holds rows 128·(t/8) … of the latent means, window 1 rows 128·(t%8) … of the latent
  log-variances (the 128 columns j of the pairwise tensor this point visits), windows 2 and 3 the [128,1536] stripe
  (row block t/8, pixel stripe t%8) of the targets and of the decoded means.
-/
import proofs.«119960_j71159018160768_2_alg».proof.Proof.Gen.KernelIdeal.Frame.Runs
import proofs.«119960_j71159018160768_2_alg».proof.Proof.Spec
import Idealize.ShloMosaic.Lib.Pipeline.Value
import Idealize.ShloMosaic.Lib.ValueIdx

noncomputable section

namespace Cert.Tcvae.Blocks

open Idealize.ShloMosaic Idealize.ShloMosaic.ValueIdx Idealize.ShloMosaic.TcCoe Idealize.SL.Sem
open Cert.KernelIdeal Cert.KernelIdeal.Gen Cert.Tcvae

variable {F : FTy → Type} [FloatOps F]
variable (m : (ℓ : Loc nD τ sig) → Buf (Elt F) ℓ)

/-- Row p of row block b (b = 0 … 7). -/
def rowAt (b : ℕ) (p : Fin 128) : Fin 1024 := ⟨(128 * b + p.val) % 1024, Nat.mod_lt _ (by decide)⟩

theorem grid_N : cfg0.N = 64 := N_0

/-- The index maps of the four input windows, decided once over the grid. -/
theorem index0 : ∀ t : Fin cfg0.N, win0_0.index t 0 = t.val / 8 ∧ win0_0.index t 1 = 0 :=
  (by decide +kernel : ∀ t : Fin grid0.N, win0_0.index t 0 = t.val / 8 ∧ win0_0.index t 1 = 0)
theorem index1 : ∀ t : Fin cfg0.N, win0_1.index t 0 = t.val % 8 ∧ win0_1.index t 1 = 0 :=
  (by decide +kernel : ∀ t : Fin grid0.N, win0_1.index t 0 = t.val % 8 ∧ win0_1.index t 1 = 0)
theorem index2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem index3 : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)

/-- Window 0's block at point t is rows 128·(t/8) … of the latent means. -/
theorem iblk0_apply (c : Dev nD) (t : Fin cfg0.N) (p : Fin 128) (d : Fin 64) :
    (iblk m c 0 t : Vec F S128x64 .f32) (ix2 p d)
      = m ((c : Thread nD τ).loc main_arg3) (ix2 (rowAt (t.val / 8) p) d) := by
  have hi := index0 t
  have ht : t.val < 64 := lt_of_lt_of_eq t.isLt grid_N
  unfold iblk
  rw [View.read_apply]
  show V m c main_arg3 _ = m (c.tc.loc main_arg3) _
  unfold V
  congr 1
  funext a
  apply Fin.ext
  match a with
  | ⟨0, _⟩ =>
    show win0_0.index t 0 * 128 + 1 * p.val = (128 * (t.val / 8) + p.val) % 1024
    rw [hi.1]; have := p.isLt; omega
  | ⟨1, _⟩ =>
    show win0_0.index t 1 * 64 + 1 * d.val = d.val
    rw [hi.2]; omega

/-- Window 1's block at point t is rows 128·(t%8) … of the latent log-variances. -/
theorem iblk1_apply (c : Dev nD) (t : Fin cfg0.N) (l : Fin 128) (d : Fin 64) :
    (iblk m c 1 t : Vec F S128x64 .f32) (ix2 l d)
      = m ((c : Thread nD τ).loc main_arg4) (ix2 (colAt (t.val % 8) l) d) := by
  have hi := index1 t
  unfold iblk
  rw [View.read_apply]
  show V m c main_arg4 _ = m (c.tc.loc main_arg4) _
  unfold V
  congr 1
  funext a
  apply Fin.ext
  match a with
  | ⟨0, _⟩ =>
    show win0_1.index t 0 * 128 + 1 * l.val = (128 * (t.val % 8) + l.val) % 1024
    rw [hi.1]; have := l.isLt; omega
  | ⟨1, _⟩ =>
    show win0_1.index t 1 * 64 + 1 * d.val = d.val
    rw [hi.2]; omega

/-- Window 2's block at point t is the stripe (row block t/8, pixel stripe t%8) of the targets. -/
theorem iblk2_apply (c : Dev nD) (t : Fin cfg0.N) (p : Fin 128) (q : Fin 1536) :
    (iblk m c 2 t : Vec F S128x1536 .f32) (ix2 p q)
      = m ((c : Thread nD τ).loc main_arg0) (ix2 (rowAt (t.val / 8) p) (pixAt (t.val % 8) q)) := by
  have hi := index2 t
  have ht : t.val < 64 := lt_of_lt_of_eq t.isLt grid_N
  unfold iblk
  rw [View.read_apply]
  show V m c main_arg0 _ = m (c.tc.loc main_arg0) _
  unfold V
  congr 1
  funext a
  apply Fin.ext
  match a with
  | ⟨0, _⟩ =>
    show win0_2.index t 0 * 128 + 1 * p.val = (128 * (t.val / 8) + p.val) % 1024
    rw [hi.1]; have := p.isLt; omega
  | ⟨1, _⟩ =>
    show win0_2.index t 1 * 1536 + 1 * q.val = (1536 * (t.val % 8) + q.val) % 12288
    rw [hi.2]; have := q.isLt; omega

/-- Window 3's block at point t is the same stripe of the decoded means. -/
theorem iblk3_apply (c : Dev nD) (t : Fin cfg0.N) (p : Fin 128) (q : Fin 1536) :
    (iblk m c 3 t : Vec F S128x1536 .f32) (ix2 p q)
      = m ((c : Thread nD τ).loc main_arg1) (ix2 (rowAt (t.val / 8) p) (pixAt (t.val % 8) q)) := by
  have hi := index3 t
  have ht : t.val < 64 := lt_of_lt_of_eq t.isLt grid_N
  unfold iblk
  rw [View.read_apply]
  show V m c main_arg1 _ = m (c.tc.loc main_arg1) _
  unfold V
  congr 1
  funext a
  apply Fin.ext
  match a with
  | ⟨0, _⟩ =>
    show win0_3.index t 0 * 128 + 1 * p.val = (128 * (t.val / 8) + p.val) % 1024
    rw [hi.1]; have := p.isLt; omega
  | ⟨1, _⟩ =>
    show win0_3.index t 1 * 1536 + 1 * q.val = (1536 * (t.val % 8) + q.val) % 12288
    rw [hi.2]; have := q.isLt; omega

end Cert.Tcvae.Blocks

end
-- ==== Proof.Arrays.lean ====
/-
  From blocks to the arrays: the five result arrays of the kernel after the run.

  The grid is 8 × 8 and point t = 8·(row block) + (column block). Each result array has 1024 rows in eight blocks of
  128: block t / 8 is the one point t holds, and it is written back only at the last column block of its row block,
  t % 8 = 7. So the eight write-backs, at t = 8·b + 7, tile the array: row r lies in block r / 128. If what each
  flushing point holds is, entry by entry, a function G of the array's index — row p of the block being row
  128·(t/8) + p of the array —, then the array ends holding G.
    results 0 and 1 are [1024, 64] in blocks of [128, 64]; results 2, 3 and 4 are [1024] in blocks of [128].
-/
import proofs.«119960_j71159018160768_2_alg».proof.Proof.FrameKIDefs
import proofs.«119960_j71159018160768_2_alg».proof.Proof.Gen.KernelIdeal.Points
import proofs.«119960_j71159018160768_2_alg».proof.Proof.Blocks
import Idealize.ShloMosaic.Lib.Pipeline.Value

noncomputable section

namespace Cert.Tcvae.Arrays

open Cert.KernelIdeal Cert.KernelIdeal.Gen Cert.KernelIdeal.GenP Idealize.ShloMosaic Idealize.ShloMosaic.ValueIdx
open Idealize.ShloMosaic.TcCoe Idealize.SL.Sem
open Cert.Tcvae.Blocks (rowAt grid_N)

variable {F : FTy → Type} [FloatOps F]
variable (m : (ℓ : Loc nD τ sig) → Buf (Elt F) ℓ)

/-! ## Window 4: the running maxima of the pair term, [1024, 64] in blocks of [128, 64] -/

theorem index4 : ∀ t : Fin cfg0.N, win0_4.index t 0 = t.val / 8 ∧ win0_4.index t 1 = 0 :=
  (by decide +kernel : ∀ t : Fin grid0.N, win0_4.index t 0 = t.val / 8 ∧ win0_4.index t 1 = 0)

/-- What a flushing point writes back is its block of G. -/
theorem flushed4_eq (c : Dev nD) (G : S1024x64.Idx → Elt F .f32)
    (h : ∀ (t : Fin cfg0.N), t.val % 8 = 7 → ∀ (p : Fin 128) (d : Fin 64),
      (outsAt0 m c t.val t.isLt).1 (ix2 p d) = G (ix2 (rowAt (t.val / 8) p) d))
    (t : Fin cfg0.N) (hf : (cfg0.win 4).flush t = true) :
    (dats m 0 c).flushed 4 t = ((cfg0.win 4).blk t).view.read (Elt F) G := by
  have h7 : t.val % 8 = 7 := (flush0_4 t).mp hf
  have hi := index4 t
  have ht : t.val < 64 := lt_of_lt_of_eq t.isLt grid_N
  show (cfg0.win 4).cut (grid0.coords t) ((dats m 0 c).after 4 t) = _
  rw [after0_4]
  funext j
  obtain ⟨p, d, rfl⟩ : ∃ (p : Fin 128) (d : Fin 64), j = ix2 p d := ⟨j 0, j 1, eq_ix2 (n0 := 128) (n1 := 64) j⟩
  show (outsAt0 m c t.val t.isLt).1 (ix2 p d) = G (((cfg0.win 4).blk t).view.emb (ix2 p d))
  rw [h t h7 p d]
  refine congrArg G ?_
  funext a
  apply Fin.ext
  match a with
  | ⟨0, _⟩ =>
    show (128 * (t.val / 8) + p.val) % 1024 = win0_4.index t 0 * 128 + 1 * p.val
    rw [hi.1]; have := p.isLt; omega
  | ⟨1, _⟩ =>
    show d.val = win0_4.index t 1 * 64 + 1 * d.val
    rw [hi.2]; omega

/-- An index of the array is in point t's block iff each coordinate is in the block's range on its axis. -/
theorem mem_blk4 (t : Fin cfg0.N) (i : S1024x64.Idx) :
    i ∈ ((cfg0.win 4).blk t).view.set
      ↔ ∀ a : Fin 2, win0_4.index t a * S128x64.size a ≤ (i a).val
          ∧ (i a).val < win0_4.index t a * S128x64.size a + S128x64.size a := by
  show i ∈ ((View.whole main_v0_0).slice (win0_4.rect t)).set ↔ _
  rw [View.set_slice_whole, Rect.mem_set_unit]
  exact Iff.rfl

/-- The eight write-backs tile the array: row r lies in the block of the last point of its row block. -/
theorem cover4 (i : S1024x64.Idx) :
    ∃ t : Fin cfg0.N, (cfg0.win 4).flush t = true ∧ i ∈ ((cfg0.win 4).blk t).view.set := by
  have hi0 : (i 0).val < 1024 := (i 0).isLt
  have hi1 : (i 1).val < 64 := (i 1).isLt
  let t : Fin cfg0.N := ⟨8 * ((i 0).val / 128) + 7, by rw [grid_N]; omega⟩
  have htv : t.val = 8 * ((i 0).val / 128) + 7 := rfl
  have hx := index4 t
  refine ⟨t, (flush0_4 t).mpr (by rw [htv]; omega), ?_⟩
  rw [mem_blk4]
  intro a
  match a with
  | ⟨0, _⟩ =>
    show win0_4.index t 0 * 128 ≤ (i 0).val ∧ (i 0).val < win0_4.index t 0 * 128 + 128
    rw [hx.1, htv]; omega
  | ⟨1, _⟩ =>
    show win0_4.index t 1 * 64 ≤ (i 1).val ∧ (i 1).val < win0_4.index t 1 * 64 + 64
    rw [hx.2]; omega

/-- The array after the run. -/
theorem arr4 (c : Dev nD) (G : S1024x64.Idx → Elt F .f32)
    (h : ∀ (t : Fin cfg0.N), t.val % 8 = 7 → ∀ (p : Fin 128) (d : Fin 64),
      (outsAt0 m c t.val t.isLt).1 (ix2 p d) = G (ix2 (rowAt (t.val / 8) p) d)) :
    (dats m 0 c).arrAt 4 cfg0.N = G :=
  (dats m 0 c).arrAt_eq_of_cover 4 G (flushed4_eq m c G h) cover4

/-! ## Window 5: the exp-sums of the pair term, [1024, 64] in blocks of [128, 64] -/

theorem index5 : ∀ t : Fin cfg0.N, win0_5.index t 0 = t.val / 8 ∧ win0_5.index t 1 = 0 :=
  (by decide +kernel : ∀ t : Fin grid0.N, win0_5.index t 0 = t.val / 8 ∧ win0_5.index t 1 = 0)

/-- What a flushing point writes back is its block of G. -/
theorem flushed5_eq (c : Dev nD) (G : S1024x64.Idx → Elt F .f32)
    (h : ∀ (t : Fin cfg0.N), t.val % 8 = 7 → ∀ (p : Fin 128) (d : Fin 64),
      (outsAt0 m c t.val t.isLt).2.1 (ix2 p d) = G (ix2 (rowAt (t.val / 8) p) d))
    (t : Fin cfg0.N) (hf : (cfg0.win 5).flush t = true) :
    (dats m 0 c).flushed 5 t = ((cfg0.win 5).blk t).view.read (Elt F) G := by
  have h7 : t.val % 8 = 7 := (flush0_5 t).mp hf
  have hi := index5 t
  have ht : t.val < 64 := lt_of_lt_of_eq t.isLt grid_N
  show (cfg0.win 5).cut (grid0.coords t) ((dats m 0 c).after 5 t) = _
  rw [after0_5]
  funext j
  obtain ⟨p, d, rfl⟩ : ∃ (p : Fin 128) (d : Fin 64), j = ix2 p d := ⟨j 0, j 1, eq_ix2 (n0 := 128) (n1 := 64) j⟩
  show (outsAt0 m c t.val t.isLt).2.1 (ix2 p d) = G (((cfg0.win 5).blk t).view.emb (ix2 p d))
  rw [h t h7 p d]
  refine congrArg G ?_
  funext a
  apply Fin.ext
  match a with
  | ⟨0, _⟩ =>
    show (128 * (t.val / 8) + p.val) % 1024 = win0_5.index t 0 * 128 + 1 * p.val
    rw [hi.1]; have := p.isLt; omega
  | ⟨1, _⟩ =>
    show d.val = win0_5.index t 1 * 64 + 1 * d.val
    rw [hi.2]; omega

/-- An index of the array is in point t's block iff each coordinate is in the block's range on its axis. -/
theorem mem_blk5 (t : Fin cfg0.N) (i : S1024x64.Idx) :
    i ∈ ((cfg0.win 5).blk t).view.set
      ↔ ∀ a : Fin 2, win0_5.index t a * S128x64.size a ≤ (i a).val
          ∧ (i a).val < win0_5.index t a * S128x64.size a + S128x64.size a := by
  show i ∈ ((View.whole main_v0_1).slice (win0_5.rect t)).set ↔ _
  rw [View.set_slice_whole, Rect.mem_set_unit]
  exact Iff.rfl

/-- The eight write-backs tile the array: row r lies in the block of the last point of its row block. -/
theorem cover5 (i : S1024x64.Idx) :
    ∃ t : Fin cfg0.N, (cfg0.win 5).flush t = true ∧ i ∈ ((cfg0.win 5).blk t).view.set := by
  have hi0 : (i 0).val < 1024 := (i 0).isLt
  have hi1 : (i 1).val < 64 := (i 1).isLt
  let t : Fin cfg0.N := ⟨8 * ((i 0).val / 128) + 7, by rw [grid_N]; omega⟩
  have htv : t.val = 8 * ((i 0).val / 128) + 7 := rfl
  have hx := index5 t
  refine ⟨t, (flush0_5 t).mpr (by rw [htv]; omega), ?_⟩
  rw [mem_blk5]
  intro a
  match a with
  | ⟨0, _⟩ =>
    show win0_5.index t 0 * 128 ≤ (i 0).val ∧ (i 0).val < win0_5.index t 0 * 128 + 128
    rw [hx.1, htv]; omega
  | ⟨1, _⟩ =>
    show win0_5.index t 1 * 64 ≤ (i 1).val ∧ (i 1).val < win0_5.index t 1 * 64 + 64
    rw [hx.2]; omega

/-- The array after the run. -/
theorem arr5 (c : Dev nD) (G : S1024x64.Idx → Elt F .f32)
    (h : ∀ (t : Fin cfg0.N), t.val % 8 = 7 → ∀ (p : Fin 128) (d : Fin 64),
      (outsAt0 m c t.val t.isLt).2.1 (ix2 p d) = G (ix2 (rowAt (t.val / 8) p) d)) :
    (dats m 0 c).arrAt 5 cfg0.N = G :=
  (dats m 0 c).arrAt_eq_of_cover 5 G (flushed5_eq m c G h) cover5

/-! ## Window 6: the running maxima of the row sums, [1024] in blocks of [128] -/

theorem index6 : ∀ t : Fin cfg0.N, win0_6.index t 0 = t.val / 8 :=
  (by decide +kernel : ∀ t : Fin grid0.N, win0_6.index t 0 = t.val / 8)

/-- What a flushing point writes back is its block of G. -/
theorem flushed6_eq (c : Dev nD) (G : S1024.Idx → Elt F .f32)
    (h : ∀ (t : Fin cfg0.N), t.val % 8 = 7 → ∀ p : Fin 128,
      (outsAt0 m c t.val t.isLt).2.2.1 (ix1 p) = G (ix1 (rowAt (t.val / 8) p)))
    (t : Fin cfg0.N) (hf : (cfg0.win 6).flush t = true) :
    (dats m 0 c).flushed 6 t = ((cfg0.win 6).blk t).view.read (Elt F) G := by
  have h7 : t.val % 8 = 7 := (flush0_6 t).mp hf
  have hi := index6 t
  have ht : t.val < 64 := lt_of_lt_of_eq t.isLt grid_N
  show (cfg0.win 6).cut (grid0.coords t) ((dats m 0 c).after 6 t) = _
  rw [after0_6]
  funext j
  obtain ⟨p, rfl⟩ : ∃ p : Fin 128, j = ix1 p := ⟨j 0, eq_ix1 (n := 128) j⟩
  show (outsAt0 m c t.val t.isLt).2.2.1 (ix1 p) = G (((cfg0.win 6).blk t).view.emb (ix1 p))
  rw [h t h7 p]
  refine congrArg G ?_
  funext a
  apply Fin.ext
  match a with
  | ⟨0, _⟩ =>
    show (128 * (t.val / 8) + p.val) % 1024 = win0_6.index t 0 * 128 + 1 * p.val
    rw [hi]; have := p.isLt; omega

/-- An index of the array is in point t's block iff its coordinate is in the block's range. -/
theorem mem_blk6 (t : Fin cfg0.N) (i : S1024.Idx) :
    i ∈ ((cfg0.win 6).blk t).view.set
      ↔ ∀ a : Fin 1, win0_6.index t a * S128.size a ≤ (i a).val
          ∧ (i a).val < win0_6.index t a * S128.size a + S128.size a := by
  show i ∈ ((View.whole main_v0_2).slice (win0_6.rect t)).set ↔ _
  rw [View.set_slice_whole, Rect.mem_set_unit]
  exact Iff.rfl

/-- The eight write-backs tile the array: row r lies in the block of the last point of its row block. -/
theorem cover6 (i : S1024.Idx) :
    ∃ t : Fin cfg0.N, (cfg0.win 6).flush t = true ∧ i ∈ ((cfg0.win 6).blk t).view.set := by
  have hi0 : (i 0).val < 1024 := (i 0).isLt
  let t : Fin cfg0.N := ⟨8 * ((i 0).val / 128) + 7, by rw [grid_N]; omega⟩
  have htv : t.val = 8 * ((i 0).val / 128) + 7 := rfl
  have hx := index6 t
  refine ⟨t, (flush0_6 t).mpr (by rw [htv]; omega), ?_⟩
  rw [mem_blk6]
  intro a
  match a with
  | ⟨0, _⟩ =>
    show win0_6.index t 0 * 128 ≤ (i 0).val ∧ (i 0).val < win0_6.index t 0 * 128 + 128
    rw [hx, htv]; omega

/-- The array after the run. -/
theorem arr6 (c : Dev nD) (G : S1024.Idx → Elt F .f32)
    (h : ∀ (t : Fin cfg0.N), t.val % 8 = 7 → ∀ p : Fin 128,
      (outsAt0 m c t.val t.isLt).2.2.1 (ix1 p) = G (ix1 (rowAt (t.val / 8) p))) :
    (dats m 0 c).arrAt 6 cfg0.N = G :=
  (dats m 0 c).arrAt_eq_of_cover 6 G (flushed6_eq m c G h) cover6

/-! ## Window 7: the exp-sums of the row sums, [1024] in blocks of [128] -/

theorem index7 : ∀ t : Fin cfg0.N, win0_7.index t 0 = t.val / 8 :=
  (by decide +kernel : ∀ t : Fin grid0.N, win0_7.index t 0 = t.val / 8)

/-- What a flushing point writes back is its block of G. -/
theorem flushed7_eq (c : Dev nD) (G : S1024.Idx → Elt F .f32)
    (h : ∀ (t : Fin cfg0.N), t.val % 8 = 7 → ∀ p : Fin 128,
      (outsAt0 m c t.val t.isLt).2.2.2.1 (ix1 p) = G (ix1 (rowAt (t.val / 8) p)))
    (t : Fin cfg0.N) (hf : (cfg0.win 7).flush t = true) :
    (dats m 0 c).flushed 7 t = ((cfg0.win 7).blk t).view.read (Elt F) G := by
  have h7 : t.val % 8 = 7 := (flush0_7 t).mp hf
  have hi := index7 t
  have ht : t.val < 64 := lt_of_lt_of_eq t.isLt grid_N
  show (cfg0.win 7).cut (grid0.coords t) ((dats m 0 c).after 7 t) = _
  rw [after0_7]
  funext j
  obtain ⟨p, rfl⟩ : ∃ p : Fin 128, j = ix1 p := ⟨j 0, eq_ix1 (n := 128) j⟩
  show (outsAt0 m c t.val t.isLt).2.2.2.1 (ix1 p) = G (((cfg0.win 7).blk t).view.emb (ix1 p))
  rw [h t h7 p]
  refine congrArg G ?_
  funext a
  apply Fin.ext
  match a with
  | ⟨0, _⟩ =>
    show (128 * (t.val / 8) + p.val) % 1024 = win0_7.index t 0 * 128 + 1 * p.val
    rw [hi]; have := p.isLt; omega

/-- An index of the array is in point t's block iff its coordinate is in the block's range. -/
theorem mem_blk7 (t : Fin cfg0.N) (i : S1024.Idx) :
    i ∈ ((cfg0.win 7).blk t).view.set
      ↔ ∀ a : Fin 1, win0_7.index t a * S128.size a ≤ (i a).val
          ∧ (i a).val < win0_7.index t a * S128.size a + S128.size a := by
  show i ∈ ((View.whole main_v0_3).slice (win0_7.rect t)).set ↔ _
  rw [View.set_slice_whole, Rect.mem_set_unit]
  exact Iff.rfl

/-- The eight write-backs tile the array: row r lies in the block of the last point of its row block. -/
theorem cover7 (i : S1024.Idx) :
    ∃ t : Fin cfg0.N, (cfg0.win 7).flush t = true ∧ i ∈ ((cfg0.win 7).blk t).view.set := by
  have hi0 : (i 0).val < 1024 := (i 0).isLt
  let t : Fin cfg0.N := ⟨8 * ((i 0).val / 128) + 7, by rw [grid_N]; omega⟩
  have htv : t.val = 8 * ((i 0).val / 128) + 7 := rfl
  have hx := index7 t
  refine ⟨t, (flush0_7 t).mpr (by rw [htv]; omega), ?_⟩
  rw [mem_blk7]
  intro a
  match a with
  | ⟨0, _⟩ =>
    show win0_7.index t 0 * 128 ≤ (i 0).val ∧ (i 0).val < win0_7.index t 0 * 128 + 128
    rw [hx, htv]; omega

/-- The array after the run. -/
theorem arr7 (c : Dev nD) (G : S1024.Idx → Elt F .f32)
    (h : ∀ (t : Fin cfg0.N), t.val % 8 = 7 → ∀ p : Fin 128,
      (outsAt0 m c t.val t.isLt).2.2.2.1 (ix1 p) = G (ix1 (rowAt (t.val / 8) p))) :
    (dats m 0 c).arrAt 7 cfg0.N = G :=
  (dats m 0 c).arrAt_eq_of_cover 7 G (flushed7_eq m c G h) cover7

/-! ## Window 8: the pixel row sums, [1024] in blocks of [128] -/

theorem index8 : ∀ t : Fin cfg0.N, win0_8.index t 0 = t.val / 8 :=
  (by decide +kernel : ∀ t : Fin grid0.N, win0_8.index t 0 = t.val / 8)

/-- What a flushing point writes back is its block of G. -/
theorem flushed8_eq (c : Dev nD) (G : S1024.Idx → Elt F .f32)
    (h : ∀ (t : Fin cfg0.N), t.val % 8 = 7 → ∀ p : Fin 128,
      (outsAt0 m c t.val t.isLt).2.2.2.2.1 (ix1 p) = G (ix1 (rowAt (t.val / 8) p)))
    (t : Fin cfg0.N) (hf : (cfg0.win 8).flush t = true) :
    (dats m 0 c).flushed 8 t = ((cfg0.win 8).blk t).view.read (Elt F) G := by
  have h7 : t.val % 8 = 7 := (flush0_8 t).mp hf
  have hi := index8 t
  have ht : t.val < 64 := lt_of_lt_of_eq t.isLt grid_N
  show (cfg0.win 8).cut (grid0.coords t) ((dats m 0 c).after 8 t) = _
  rw [after0_8]
  funext j
  obtain ⟨p, rfl⟩ : ∃ p : Fin 128, j = ix1 p := ⟨j 0, eq_ix1 (n := 128) j⟩
  show (outsAt0 m c t.val t.isLt).2.2.2.2.1 (ix1 p) = G (((cfg0.win 8).blk t).view.emb (ix1 p))
  rw [h t h7 p]
  refine congrArg G ?_
  funext a
  apply Fin.ext
  match a with
  | ⟨0, _⟩ =>
    show (128 * (t.val / 8) + p.val) % 1024 = win0_8.index t 0 * 128 + 1 * p.val
    rw [hi]; have := p.isLt; omega

/-- An index of the array is in point t's block iff its coordinate is in the block's range. -/
theorem mem_blk8 (t : Fin cfg0.N) (i : S1024.Idx) :
    i ∈ ((cfg0.win 8).blk t).view.set
      ↔ ∀ a : Fin 1, win0_8.index t a * S128.size a ≤ (i a).val
          ∧ (i a).val < win0_8.index t a * S128.size a + S128.size a := by
  show i ∈ ((View.whole main_v0_4).slice (win0_8.rect t)).set ↔ _
  rw [View.set_slice_whole, Rect.mem_set_unit]
  exact Iff.rfl

/-- The eight write-backs tile the array: row r lies in the block of the last point of its row block. -/
theorem cover8 (i : S1024.Idx) :
    ∃ t : Fin cfg0.N, (cfg0.win 8).flush t = true ∧ i ∈ ((cfg0.win 8).blk t).view.set := by
  have hi0 : (i 0).val < 1024 := (i 0).isLt
  let t : Fin cfg0.N := ⟨8 * ((i 0).val / 128) + 7, by rw [grid_N]; omega⟩
  have htv : t.val = 8 * ((i 0).val / 128) + 7 := rfl
  have hx := index8 t
  refine ⟨t, (flush0_8 t).mpr (by rw [htv]; omega), ?_⟩
  rw [mem_blk8]
  intro a
  match a with
  | ⟨0, _⟩ =>
    show win0_8.index t 0 * 128 ≤ (i 0).val ∧ (i 0).val < win0_8.index t 0 * 128 + 128
    rw [hx, htv]; omega

/-- The array after the run. -/
theorem arr8 (c : Dev nD) (G : S1024.Idx → Elt F .f32)
    (h : ∀ (t : Fin cfg0.N), t.val % 8 = 7 → ∀ p : Fin 128,
      (outsAt0 m c t.val t.isLt).2.2.2.2.1 (ix1 p) = G (ix1 (rowAt (t.val / 8) p))) :
    (dats m 0 c).arrAt 8 cfg0.N = G :=
  (dats m 0 c).arrAt_eq_of_cover 8 G (flushed8_eq m c G h) cover8

end Cert.Tcvae.Arrays

end
-- ==== Proof.Pieces.lean ====
/-
  What one run of the kernel body leaves in each carried accumulator and, at the last column block, in each output
  block: in every case ONE whole-block store decides the contents, so the contents is that store's value as a pure
  term of the point's input blocks x0 … x3 and of what the accumulators held before (at the first column block: of
  the values −∞ / 0 the body stores first and reads back).

    new running maximum per (i, d)      nm1 x0 x1 s0
    new rescaled exp-sum per (i, d)     nt1 x0 x1 s0 s1
    new running maximum per i           nm2 x0 x1 s2
    new rescaled exp-sum per i          nt2 x0 x1 s2 s3
    new pixel row sum per i             npx x2 x3 s4
-/
import proofs.«119960_j71159018160768_2_alg».proof.Proof.FrameKIDefs
import Idealize.ShloMosaic.Lib.Pipeline.Value
import Idealize.ShloMosaic.Lib.Tactic

set_option maxRecDepth 16384

noncomputable section

namespace Cert.Tcvae.Pieces

open Idealize.ShloMosaic Idealize.ShloMosaic.TcCoe Idealize.SL.Sem Idealize.ShloMosaic.Tactic
open Cert.KernelIdeal Cert.KernelIdeal.Gen Cert.KernelIdeal.GenP

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

def nm1 (x0 x1 s0 : Vec F S128x64 .f32) : Vec F S128x64 .f32 := k0_pay17 x0 (k0_pay12 x1) (k0_pay13 x1) s0
def nt1 (x0 x1 s0 s1 : Vec F S128x64 .f32) : Vec F S128x64 .f32 := k0_pay16 x0 (k0_pay12 x1) (k0_pay13 x1) s0 s0 s1
def nm2 (x0 x1 : Vec F S128x64 .f32) (s2 : Vec F S128x1 .f32) : Vec F S128x1 .f32 :=
  k0_pay2 (k0_pay19 x0 (k0_pay12 x1) (k0_pay13 x1) s2)
def nt2 (x0 x1 : Vec F S128x64 .f32) (s2 s3 : Vec F S128x1 .f32) : Vec F S128x1 .f32 :=
  k0_pay1 (k0_pay18 x0 (k0_pay12 x1) (k0_pay13 x1)) (k0_pay19 x0 (k0_pay12 x1) (k0_pay13 x1) s2) s2 s3
def npx (x2 x3 : Vec F S128x1536 .f32) (s4 : Vec F S128x1 .f32) : Vec F S128x1 .f32 := k0_pay11 x2 x3 s4

theorem sA0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : cond0_0 i) (hc1 : ¬cond0_1 i)
    (x0 x1 : Vec F S128x64 .f32) (x2 x3 : Vec F S128x1536 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3
      = nm1 x0 x1 k0_pay6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3)]
  unfold kernelRun0_A
  dsimp only
  sl_unfold_words
  rw [View.canon_cons_unit_zero hz2]
  simp only [View.readCov_unit_zero (S := S128x64) _ hz2, View.readCov_unit_zero (S := S128x1) _ hz2,
    View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sA1 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : cond0_0 i) (hc1 : ¬cond0_1 i)
    (x0 x1 : Vec F S128x64 .f32) (x2 x3 : Vec F S128x1536 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3
      = nt1 x0 x1 k0_pay6 k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3)]
  unfold kernelRun0_A
  dsimp only
  sl_unfold_words
  rw [View.canon_cons_unit_zero hz2]
  simp only [View.readCov_unit_zero (S := S128x64) _ hz2, View.readCov_unit_zero (S := S128x1) _ hz2,
    View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sA2 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : cond0_0 i) (hc1 : ¬cond0_1 i)
    (x0 x1 : Vec F S128x64 .f32) (x2 x3 : Vec F S128x1536 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3
      = nm2 x0 x1 k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3)]
  unfold kernelRun0_A
  dsimp only
  sl_unfold_words
  rw [View.canon_cons_unit_zero hz2]
  simp only [View.readCov_unit_zero (S := S128x64) _ hz2, View.readCov_unit_zero (S := S128x1) _ hz2,
    View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sA3 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : cond0_0 i) (hc1 : ¬cond0_1 i)
    (x0 x1 : Vec F S128x64 .f32) (x2 x3 : Vec F S128x1536 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3
      = nt2 x0 x1 k0_pay8 k0_pay9 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3)]
  unfold kernelRun0_A
  dsimp only
  sl_unfold_words
  rw [View.canon_cons_unit_zero hz2]
  simp only [View.readCov_unit_zero (S := S128x64) _ hz2, View.readCov_unit_zero (S := S128x1) _ hz2,
    View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sA4 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : cond0_0 i) (hc1 : ¬cond0_1 i)
    (x0 x1 : Vec F S128x64 .f32) (x2 x3 : Vec F S128x1536 .f32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3
      = npx x2 x3 k0_pay10 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3)]
  unfold kernelRun0_A
  dsimp only
  sl_unfold_words
  rw [View.canon_cons_unit_zero hz2]
  simp only [View.readCov_unit_zero (S := S128x64) _ hz2, View.readCov_unit_zero (S := S128x1) _ hz2,
    View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sB0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : ¬cond0_1 i)
    (x0 x1 : Vec F S128x64 .f32) (x2 x3 : Vec F S128x1536 .f32) (xs0 xs1 : Vec F S128x64 .f32) (xs2 xs3 xs4 : Vec F S128x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = nm1 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sB1 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : ¬cond0_1 i)
    (x0 x1 : Vec F S128x64 .f32) (x2 x3 : Vec F S128x1536 .f32) (xs0 xs1 : Vec F S128x64 .f32) (xs2 xs3 xs4 : Vec F S128x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = nt1 x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sB2 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : ¬cond0_1 i)
    (x0 x1 : Vec F S128x64 .f32) (x2 x3 : Vec F S128x1536 .f32) (xs0 xs1 : Vec F S128x64 .f32) (xs2 xs3 xs4 : Vec F S128x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = nm2 x0 x1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sB3 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : ¬cond0_1 i)
    (x0 x1 : Vec F S128x64 .f32) (x2 x3 : Vec F S128x1536 .f32) (xs0 xs1 : Vec F S128x64 .f32) (xs2 xs3 xs4 : Vec F S128x1 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = nt2 x0 x1 xs2 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sB4 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : ¬cond0_1 i)
    (x0 x1 : Vec F S128x64 .f32) (x2 x3 : Vec F S128x1536 .f32) (xs0 xs1 : Vec F S128x64 .f32) (xs2 xs3 xs4 : Vec F S128x1 .f32) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = npx x2 x3 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_B
  dsimp only
  sl_unfold_words
  rw [View.canon_unit_zero hz2]
  simp only [View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sC0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : cond0_1 i)
    (x0 x1 : Vec F S128x64 .f32) (x2 x3 : Vec F S128x1536 .f32) (xs0 xs1 : Vec F S128x64 .f32) (xs2 xs3 xs4 : Vec F S128x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = nm1 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_C
  dsimp only
  sl_unfold_words
  rw [View.canon_unit_zero hz2]
  simp only [View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sC1 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : cond0_1 i)
    (x0 x1 : Vec F S128x64 .f32) (x2 x3 : Vec F S128x1536 .f32) (xs0 xs1 : Vec F S128x64 .f32) (xs2 xs3 xs4 : Vec F S128x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = nt1 x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_C
  dsimp only
  sl_unfold_words
  rw [View.canon_unit_zero hz2]
  simp only [View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sC2 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : cond0_1 i)
    (x0 x1 : Vec F S128x64 .f32) (x2 x3 : Vec F S128x1536 .f32) (xs0 xs1 : Vec F S128x64 .f32) (xs2 xs3 xs4 : Vec F S128x1 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = nm2 x0 x1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_C
  dsimp only
  sl_unfold_words
  rw [View.canon_unit_zero hz2]
  simp only [View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sC3 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : cond0_1 i)
    (x0 x1 : Vec F S128x64 .f32) (x2 x3 : Vec F S128x1536 .f32) (xs0 xs1 : Vec F S128x64 .f32) (xs2 xs3 xs4 : Vec F S128x1 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = nt2 x0 x1 xs2 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_C
  dsimp only
  sl_unfold_words
  rw [View.canon_unit_zero hz2]
  simp only [View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem sC4 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : cond0_1 i)
    (x0 x1 : Vec F S128x64 .f32) (x2 x3 : Vec F S128x1536 .f32) (xs0 xs1 : Vec F S128x64 .f32) (xs2 xs3 xs4 : Vec F S128x1 .f32) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = npx x2 x3 xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_C
  dsimp only
  sl_unfold_words
  rw [View.canon_unit_zero hz2]
  simp only [View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem oC4 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : cond0_1 i)
    (x0 x1 : Vec F S128x64 .f32) (x2 x3 : Vec F S128x1536 .f32) (xs0 xs1 : Vec F S128x64 .f32) (xs2 xs3 xs4 : Vec F S128x1 .f32) :
    out0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = nm1 x0 x1 xs0 := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_C
  dsimp only
  sl_unfold_words
  rw [View.canon_unit_zero hz2]
  simp only [View.readCov_unit_zero (S := S128x64) _ hz2, View.readCov_unit_zero (S := S128x1) _ hz2,
    View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem oC5 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : cond0_1 i)
    (x0 x1 : Vec F S128x64 .f32) (x2 x3 : Vec F S128x1536 .f32) (xs0 xs1 : Vec F S128x64 .f32) (xs2 xs3 xs4 : Vec F S128x1 .f32) :
    out0_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = nt1 x0 x1 xs0 xs1 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_C
  dsimp only
  sl_unfold_words
  rw [View.canon_unit_zero hz2]
  simp only [View.readCov_unit_zero (S := S128x64) _ hz2, View.readCov_unit_zero (S := S128x1) _ hz2,
    View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem oC6 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : cond0_1 i)
    (x0 x1 : Vec F S128x64 .f32) (x2 x3 : Vec F S128x1536 .f32) (xs0 xs1 : Vec F S128x64 .f32) (xs2 xs3 xs4 : Vec F S128x1 .f32) :
    out0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = k0_pay3 (nm2 x0 x1 xs2) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_C
  dsimp only
  sl_unfold_words
  rw [View.canon_unit_zero hz1]
  simp only [View.readCov_unit_zero (S := S128x64) _ hz2, View.readCov_unit_zero (S := S128x1) _ hz2,
    View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem oC7 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : cond0_1 i)
    (x0 x1 : Vec F S128x64 .f32) (x2 x3 : Vec F S128x1536 .f32) (xs0 xs1 : Vec F S128x64 .f32) (xs2 xs3 xs4 : Vec F S128x1 .f32) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = k0_pay4 (nt2 x0 x1 xs2 xs3) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_C
  dsimp only
  sl_unfold_words
  rw [View.canon_unit_zero hz1]
  simp only [View.readCov_unit_zero (S := S128x64) _ hz2, View.readCov_unit_zero (S := S128x1) _ hz2,
    View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

theorem oC8 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1 .f32) (harg15 : arg15.IsWhole) (hc0 : ¬cond0_0 i) (hc1 : cond0_1 i)
    (x0 x1 : Vec F S128x64 .f32) (x2 x3 : Vec F S128x1536 .f32) (xs0 xs1 : Vec F S128x64 .f32) (xs2 xs3 xs4 : Vec F S128x1 .f32) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4
      = k0_pay5 (npx x2 x3 xs4) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 xs0 xs1 xs2 xs3 xs4)]
  unfold kernelRun0_C
  dsimp only
  sl_unfold_words
  rw [View.canon_unit_zero hz1]
  simp only [View.readCov_unit_zero (S := S128x64) _ hz2, View.readCov_unit_zero (S := S128x1) _ hz2,
    View.readAt_eq_ld, harg2.read_unread, harg3.read_unread, harg4.read_unread, harg5.read_unread,
    harg11.read_unread, harg12.read_unread, harg13.read_unread, harg14.read_unread, harg15.read_unread,
    View.ld_unit_zero (S := S128x64) hz2, View.ld_unit_zero (S := S128x1) hz2, View.ld_unit_zero (S := S128x1536) hz2]
  rfl

end Cert.Tcvae.Pieces

end
-- ==== Proof.Carried.lean ====
/-
  The five carried accumulators after a grid point, from those after the point before. At the first column block of a
  row block (t % 8 = 0) they are one step from the initial values −∞ / 0; at every other point one step from what the
  point before left; and at the last column block (t % 8 = 7) the five output blocks are the accumulators just
  computed (the three per-row ones with their unit axis dropped).
-/
import proofs.«119960_j71159018160768_2_alg».proof.Proof.FrameKIDefs
import proofs.«119960_j71159018160768_2_alg».proof.Proof.Pieces

set_option maxRecDepth 16384

noncomputable section

namespace Cert.Tcvae.Carried

open Idealize.ShloMosaic Idealize.ShloMosaic.TcCoe Idealize.SL.Sem
open Cert.KernelIdeal Cert.KernelIdeal.Gen Cert.KernelIdeal.GenP Cert.Tcvae.Pieces

variable {F : FTy → Type} [FloatOps F]
variable (m : (ℓ : Loc nD τ sig) → Buf (Elt F) ℓ)

theorem s0_first (c : Dev nD) (t : Fin cfg0.N) (h0 : t.val % 8 = 0) :
    (outsAt0 m c t.val t.isLt).2.2.2.2.2.1 = nm1 (iblk m c 0 t) (iblk m c 1 t) k0_pay6 := by
  have h1 : ¬t.val % 8 = 7 := by omega
  rw [outsAt0_A m c t h0 h1]
  exact sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)

theorem s0_next (c : Dev nD) (t : Fin cfg0.N) (h0 : ¬t.val % 8 = 0) :
    (outsAt0 m c t.val t.isLt).2.2.2.2.2.1 = nm1 (iblk m c 0 t) (iblk m c 1 t) (outsAt0 m c (t.val - 1) (Nat.lt_of_le_of_lt (Nat.sub_le _ _) t.isLt)).2.2.2.2.2.1 := by
  by_cases h1 : t.val % 8 = 7
  · rw [outsAt0_C m c t h0 h1]
    exact sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2
  · rw [outsAt0_B m c t h0 h1]
    exact sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

theorem s1_first (c : Dev nD) (t : Fin cfg0.N) (h0 : t.val % 8 = 0) :
    (outsAt0 m c t.val t.isLt).2.2.2.2.2.2.1 = nt1 (iblk m c 0 t) (iblk m c 1 t) k0_pay6 k0_pay7 := by
  have h1 : ¬t.val % 8 = 7 := by omega
  rw [outsAt0_A m c t h0 h1]
  exact sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)

theorem s1_next (c : Dev nD) (t : Fin cfg0.N) (h0 : ¬t.val % 8 = 0) :
    (outsAt0 m c t.val t.isLt).2.2.2.2.2.2.1 = nt1 (iblk m c 0 t) (iblk m c 1 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 := by
  by_cases h1 : t.val % 8 = 7
  · rw [outsAt0_C m c t h0 h1]
    exact sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2
  · rw [outsAt0_B m c t h0 h1]
    exact sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

theorem s2_first (c : Dev nD) (t : Fin cfg0.N) (h0 : t.val % 8 = 0) :
    (outsAt0 m c t.val t.isLt).2.2.2.2.2.2.2.1 = nm2 (iblk m c 0 t) (iblk m c 1 t) k0_pay8 := by
  have h1 : ¬t.val % 8 = 7 := by omega
  rw [outsAt0_A m c t h0 h1]
  exact sA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)

theorem s2_next (c : Dev nD) (t : Fin cfg0.N) (h0 : ¬t.val % 8 = 0) :
    (outsAt0 m c t.val t.isLt).2.2.2.2.2.2.2.1 = nm2 (iblk m c 0 t) (iblk m c 1 t) (outsAt0 m c (t.val - 1) (Nat.lt_of_le_of_lt (Nat.sub_le _ _) t.isLt)).2.2.2.2.2.2.2.1 := by
  by_cases h1 : t.val % 8 = 7
  · rw [outsAt0_C m c t h0 h1]
    exact sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2
  · rw [outsAt0_B m c t h0 h1]
    exact sB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

theorem s3_first (c : Dev nD) (t : Fin cfg0.N) (h0 : t.val % 8 = 0) :
    (outsAt0 m c t.val t.isLt).2.2.2.2.2.2.2.2.1 = nt2 (iblk m c 0 t) (iblk m c 1 t) k0_pay8 k0_pay9 := by
  have h1 : ¬t.val % 8 = 7 := by omega
  rw [outsAt0_A m c t h0 h1]
  exact sA3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)

theorem s3_next (c : Dev nD) (t : Fin cfg0.N) (h0 : ¬t.val % 8 = 0) :
    (outsAt0 m c t.val t.isLt).2.2.2.2.2.2.2.2.1 = nt2 (iblk m c 0 t) (iblk m c 1 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 := by
  by_cases h1 : t.val % 8 = 7
  · rw [outsAt0_C m c t h0 h1]
    exact sC3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2
  · rw [outsAt0_B m c t h0 h1]
    exact sB3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

theorem s4_first (c : Dev nD) (t : Fin cfg0.N) (h0 : t.val % 8 = 0) :
    (outsAt0 m c t.val t.isLt).2.2.2.2.2.2.2.2.2 = npx (iblk m c 2 t) (iblk m c 3 t) k0_pay10 := by
  have h1 : ¬t.val % 8 = 7 := by omega
  rw [outsAt0_A m c t h0 h1]
  exact sA4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)

theorem s4_next (c : Dev nD) (t : Fin cfg0.N) (h0 : ¬t.val % 8 = 0) :
    (outsAt0 m c t.val t.isLt).2.2.2.2.2.2.2.2.2 = npx (iblk m c 2 t) (iblk m c 3 t) (outsAt0 m c (t.val - 1) (Nat.lt_of_le_of_lt (Nat.sub_le _ _) t.isLt)).2.2.2.2.2.2.2.2.2 := by
  by_cases h1 : t.val % 8 = 7
  · rw [outsAt0_C m c t h0 h1]
    exact sC4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2
  · rw [outsAt0_B m c t h0 h1]
    exact sB4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

theorem o4_last (c : Dev nD) (t : Fin cfg0.N) (h1 : t.val % 8 = 7) :
    (outsAt0 m c t.val t.isLt).1 = nm1 (iblk m c 0 t) (iblk m c 1 t) (outsAt0 m c (t.val - 1) (Nat.lt_of_le_of_lt (Nat.sub_le _ _) t.isLt)).2.2.2.2.2.1 := by
  have h0 : ¬t.val % 8 = 0 := by omega
  rw [outsAt0_C m c t h0 h1]
  exact oC4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

theorem o5_last (c : Dev nD) (t : Fin cfg0.N) (h1 : t.val % 8 = 7) :
    (outsAt0 m c t.val t.isLt).2.1 = nt1 (iblk m c 0 t) (iblk m c 1 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 := by
  have h0 : ¬t.val % 8 = 0 := by omega
  rw [outsAt0_C m c t h0 h1]
  exact oC5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

theorem o6_last (c : Dev nD) (t : Fin cfg0.N) (h1 : t.val % 8 = 7) :
    (outsAt0 m c t.val t.isLt).2.2.1 = k0_pay3 (nm2 (iblk m c 0 t) (iblk m c 1 t) (outsAt0 m c (t.val - 1) (Nat.lt_of_le_of_lt (Nat.sub_le _ _) t.isLt)).2.2.2.2.2.2.2.1) := by
  have h0 : ¬t.val % 8 = 0 := by omega
  rw [outsAt0_C m c t h0 h1]
  exact oC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

theorem o7_last (c : Dev nD) (t : Fin cfg0.N) (h1 : t.val % 8 = 7) :
    (outsAt0 m c t.val t.isLt).2.2.2.1 = k0_pay4 (nt2 (iblk m c 0 t) (iblk m c 1 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1) := by
  have h0 : ¬t.val % 8 = 0 := by omega
  rw [outsAt0_C m c t h0 h1]
  exact oC7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

theorem o8_last (c : Dev nD) (t : Fin cfg0.N) (h1 : t.val % 8 = 7) :
    (outsAt0 m c t.val t.isLt).2.2.2.2.1 = k0_pay5 (npx (iblk m c 2 t) (iblk m c 3 t) (outsAt0 m c (t.val - 1) (Nat.lt_of_le_of_lt (Nat.sub_le _ _) t.isLt)).2.2.2.2.2.2.2.2.2) := by
  have h0 : ¬t.val % 8 = 0 := by omega
  rw [outsAt0_C m c t h0 h1]
  exact oC8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2

end Cert.Tcvae.Carried

end
-- ==== Proof.LibLastAxis.lean ====
/-
  Reusable lemmas: reductions along the LAST axis of an [a, b, c] array, read at an entry over the extended reals.

  A sum over the last axis, from the zero accumulator, is at (i, k) the sum over j of the entries (i, k, j); a running
  maximum along it is the fold of max, from the accumulator's value, over those entries. Generic in the extents.
-/
import Idealize.ShloMosaic.Lib.ValueIdx
import Idealize.ShloMosaic.PureOps.Ideal.Laws

noncomputable section

namespace Cert.LastAxis

open Idealize.ShloMosaic Idealize.ShloMosaic.ValueIdx

variable {a b c : ℕ}

/-- The source index of a reduction over the last axis: the pair (i, k) with the coordinate j appended is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- A sum over the last axis of an [a, b, c] array, from the zero accumulator, is at (i, k) the sum over j of the
    entries (i, k, j). -/
theorem lastSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

/-- A running maximum along the last axis of an [a, b, c] array is at (i, k) the fold of max, from the accumulator's
    value, over the entries (i, k, j). -/
theorem lastMax_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (i : Fin a) (k : Fin b) :
    multiReduction .maximumf [(2 : Fin 3)] ⟨2, ![a, b]⟩ src acc h hφ hacc (ix2 i k)
      = (Finset.univ : Finset (Fin c)).fold max (Ideal.ofBits φ acc) (fun j => src (ix3 i k j)) := by
  refine (Ideal.multiReduction_maximumf_single src acc h hφ hacc (ix2 i k)).trans ?_
  have e : (src ∘ h.lift (ix2 i k)) = fun j => src (ix3 i k j) := funext fun j => congrArg src (lift_last h i k j)
  show (Finset.univ : Finset (Fin c)).fold max (Ideal.ofBits φ acc) (src ∘ h.lift (ix2 i k)) = _
  rw [e]
  rfl

end Cert.LastAxis

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibPairLayout.lean ====
/-
  Reusable lemmas: the layout operations of a pairwise (outer) combination of two row blocks, read at an entry.

  A kernel that combines every row i of an [a, c] block with every row k of a [b, c] block builds the [a, b, c] array
  of pairs by inserting a unit axis ([a, c] → [a, 1, c], [b, c] → [1, b, c]) and broadcasting along it; flattens the
  pairs to the rows r = i·b + k of an [a·b, c] matrix for a matrix product and back; lays a [c] vector along every pair
  ([c] → [1, 1, c] → [a, b, c]); reads a [c, 1] column as a [c] vector; and sums over the last axis.  Each lemma reads
  one such operation at an entry written by its coordinates.  Generic in the extents and in the element type.
-/
import Idealize.ShloMosaic.Lib.Pipeline.Value
import Idealize.ShloMosaic.Lib.ValueIdx
import Idealize.ShloMosaic.PureOps.Ideal.Laws

noncomputable section

namespace Cert.PairLayout

open Idealize.ShloMosaic Idealize.ShloMosaic.ValueIdx

variable {α : Type} {a b c n : ℕ}

/-- An [a, c] array viewed [a, 1, c] reads, at (i, u, j), the operand at (i, j). -/
theorem shapeCast_ac_a1c_apply (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An [a, 1, c] array broadcast to [a, b, c] reads, at (i, k, j), the operand at (i, 0, j). -/
theorem broadcastTo_a1c_abc_apply (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A [1, b, c] array broadcast to [a, b, c] reads, at (i, k, j), the operand at (0, k, j). -/
theorem broadcastTo_1bc_abc_apply (x : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A [1, 1, c] array broadcast to [a, b, c] reads, at (i, k, j), the operand at (0, 0, j). -/
theorem broadcastTo_11c_abc_apply (x : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- A [c] vector viewed [1, 1, c] reads, at (u, v, j), the operand at j. -/
theorem shapeCast_c_11c_apply (x : (⟨1, ![c]⟩ : Shape).Idx → α)
    (h : (⟨1, ![c]⟩ : Shape).ShapeCasts ⟨3, ![1, 1, c]⟩) (u v : Fin 1) (j : Fin c) :
    shapeCast ⟨3, ![1, 1, c]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * c + j.val
    simp only [hu, hv, Nat.zero_mul, Nat.zero_add, Nat.mul_one, Nat.add_zero])

/-- A [c, 1] column viewed as a [c] vector reads, at j, the operand at (j, 0). -/
theorem shapeCast_c1_c_apply (x : (⟨2, ![c, 1]⟩ : Shape).Idx → α)
    (h : (⟨2, ![c, 1]⟩ : Shape).ShapeCasts ⟨1, ![c]⟩) (j : Fin c) :
    shapeCast ⟨1, ![c]⟩ x h (ix1 j) = x (ix2 j (0 : Fin 1)) :=
  shapeCast_apply x h _ _ (by
    rw [Shape.rowMajor_val_two, Shape.rowMajor_val_one]
    show j.val * 1 + 0 = j.val
    rw [Nat.mul_one, Nat.add_zero])

/-- The pairs flattened: an [a, b, c] array viewed as the [n, c] matrix (n = a·b) reads, at row r = i·b + k and
    column j, the operand at (i, k, j). -/
theorem shapeCast_abc_nc_apply (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- And back: an [n, c] matrix (n = a·b) viewed [a, b, c] reads, at (i, k, j), the operand at row r = i·b + k. -/
theorem shapeCast_nc_abc_apply (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-- The source index of a sum over the last axis: the pair (i, k) with the coordinate j inserted is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- Over the extended reals a sum over the last axis of an [a, b, c] array, from the zero accumulator, is at the pair
    (i, k) the sum over j of the entries (i, k, j). -/
theorem laneSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

end Cert.PairLayout

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibBlockSpread.lean ====
/-
  Layout operations of a pairwise kernel block read at an entry, generic in the extents and the element type.

  A kernel that combines every row p of one block with every row c of another spreads a per-row quantity over the
  other axis: a length-a vector becomes a column [a, 1] and is broadcast to [a, b] (entry (p, c) is the vector at p);
  a length-b vector becomes a row [1, b] and is broadcast to [a, b] (entry (p, c) is the vector at c). The quantities
  come from columns picked out of an [a, n] block (a slice of width one, its unit axis dropped) and from single
  lanes picked out of a short vector; blocks arrive with leading unit axes, which a shape cast drops.
-/
import Idealize.ShloMosaic.Lib.Pipeline.Value
import Idealize.ShloMosaic.Lib.ValueIdx
import Idealize.ShloMosaic.Lib.ValueLayout
import proofs.«119960_j71159018160768_2_alg».proof.Proof.LibKeepdimsColumn

noncomputable section

namespace Cert.BlockSpread

open Idealize.ShloMosaic Idealize.ShloMosaic.ValueIdx

variable {α : Type} {a b n : ℕ}

/-- A vector made a column and broadcast along the rows' other axis: entry (p, c) is the vector at p. -/
theorem col_spread (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) :=
  (Cert.KeepdimsColumn.broadcastTo_a1_ab_apply _ h2 p c).trans
    (Cert.KeepdimsColumn.shapeCast_a_a1_apply v h1 p 0)

/-- A vector made a row and broadcast down the rows: entry (p, c) is the vector at c. -/
theorem row_spread (w : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ w h1) h2 (ix2 p c) = w (ix1 c) :=
  (broadcastTo_1b_ab_apply _ h2 p c).trans (shapeCast_a_1a_apply w h1 0 c)

/-- An [a, 1] column with its unit axis dropped reads, at i, the column at (i, 0). -/
theorem shapeCast_a1_a_apply (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A [1, 1, a] block with its two unit axes dropped reads, at i, the block at (0, 0, i). -/
theorem shapeCast_11a_a_apply (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- Column `k` of an [a, n] block, as a vector: the slice of width one at offset `o = k`, its unit axis dropped. -/
theorem col_pick (o : ℕ) (X : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (p : Fin a) (k : Fin n) (hk : k.val = o) :
    shapeCast ⟨1, ![a]⟩ (extractStridedSlice ⟨2, ![a, 1]⟩ ![0, o] X hs) hc (ix1 p) = X (ix2 p k) :=
  (shapeCast_a1_a_apply _ hc p).trans (slice2_axis1_apply o X hs p 0 k (by rw [hk]; rfl))

/-- Lane `k` of a vector, as a scalar: the slice of length one at offset `o = k`, read at its one position. -/
theorem lane_pick (o : ℕ) (v : (⟨1, ![n]⟩ : Shape).Idx → α) (hs : (⟨1, ![n]⟩ : Shape).Slices ![o] ⟨1, ![1]⟩)
    (hp : ∀ d : Fin (⟨1, ![1]⟩ : Shape).rank, (![0] : Fin 1 → ℕ) d < (⟨1, ![1]⟩ : Shape).size d)
    (k : Fin n) (hk : k.val = o) :
    extractAt (s := ⟨1, ![1]⟩) ![0] (extractStridedSlice ⟨1, ![1]⟩ ![o] v hs) hp = v (ix1 k) := by
  unfold extractAt
  refine extractStridedSlice_apply _ v hs _ (ix1 k) fun d => ?_
  match d with
  | ⟨0, _⟩ => show k.val = o + 0; omega

end Cert.BlockSpread

end
-- ==== Proof.BlockTerms.lean ====
/-
  What the kernel body computes from the blocks of one grid point, entry by entry, over the extended reals.

  The blocks: x0, a [128,64] block of latent means (rows i); x1, a [128,64] block of latent log-variances (rows j: the
  128 columns of the pairwise tensor this point visits); x2 and x3, a [128,1536] stripe of targets and of decoded
  means. The carried accumulators: s0, s1 (running maximum and rescaled exp-sum per (i, d)), s2, s3 (the same per i,
  of the sums over d), s4 (the running pixel row sum), the last three kept as [128,1] columns.

  The [128,64,128] tensor the body builds is, at (p, d, l), the Gaussian term gaussK (x0 (p,d)) (x1 (l,d)): the
  log-variance side is transposed to [64,128] and spread along the first axis, the squared mean is given a trailing
  unit axis and spread along the last. Every reduction is then read as a fold of max or a finite sum over the lane l
  (last axis) or over d (middle axis), and each accumulator's new contents is one step of the running maximum
  (stepMax), of the rescaled running sum (stepSum), or an addition.
-/
import proofs.«119960_j71159018160768_2_alg».proof.Proof.Gen.KernelIdeal.Skeleton
import proofs.«119960_j71159018160768_2_alg».proof.Proof.Spec
import proofs.«119960_j71159018160768_2_alg».proof.Proof.LibLastAxis
import proofs.«119960_j71159018160768_2_alg».proof.Proof.LibSlabLayout
import proofs.«119960_j71159018160768_2_alg».proof.Proof.LibPairLayout
import proofs.«119960_j71159018160768_2_alg».proof.Proof.LibKeepdimsColumn
import proofs.«119960_j71159018160768_2_alg».proof.Proof.LibBlockSpread
import Idealize.ShloMosaic.Lib.ValueLayout
import Idealize.ShloMosaic.Lib.ValueIdx
import Idealize.ShloMosaic.Lib.Pipeline.Value

noncomputable section

namespace Cert.Tcvae.Block

open Idealize.ShloMosaic Idealize.ShloMosaic.ValueIdx Cert.KernelIdeal Cert.KernelIdeal.Gen Cert.Tcvae

/-- The Gaussian term of row p, coordinate d against column l. -/
abbrev term (x0 x1 : Vec Ideal S128x64 .f32) (p : Fin 128) (d : Fin 64) (l : Fin 128) : EReal :=
  gaussK (x0 (ix2 p d)) (x1 (ix2 l d))

/-- The pairwise tensor at (p, d, l). -/
theorem pairBlock_apply (x0 x1 : Vec Ideal S128x64 .f32) (p : Fin 128) (d : Fin 64) (l : Fin 128) :
    k0_pay14 (F := Ideal) x0 (k0_pay12 x1) (k0_pay13 x1) (ix3 p d l) = term x0 x1 p d l := by
  unfold k0_pay14
  try dsimp only
  rw [subf_apply, mulf_apply]
  rw [Cert.PairLayout.broadcastTo_1bc_abc_apply, shapeCast_ab_1ab_apply, transpose_ix2_apply]
  rw [Cert.SlabLayout.broadcastTo_ab1_abc_apply, mulf_apply, broadcast_apply, Cert.SlabLayout.shapeCast_ab_ab1_apply,
    mulf_apply]
  rw [Cert.PairLayout.broadcastTo_1bc_abc_apply, shapeCast_ab_1ab_apply, transpose_ix2_apply, divf_apply,
    broadcast_apply]
  unfold k0_pay12 k0_pay13
  try dsimp only
  rfl

/-- The block's own maximum over the lanes, at (p, d): the fold of max from −∞ over the 128 columns. -/
theorem laneMax_apply (x0 x1 : Vec Ideal S128x64 .f32) (p : Fin 128) (d : Fin 64) :
    multiReduction (F := Ideal) .maximumf [2] S128x64 (k0_pay14 x0 (k0_pay12 x1) (k0_pay13 x1)) 0xFF800000#32
        reduces_S128x64x128_S128x64 (.inl rfl) rfl (ix2 p d)
      = (Finset.univ : Finset (Fin 128)).fold max negInf (fun l => term x0 x1 p d l) := by
  refine (Cert.LastAxis.lastMax_apply _ _ _ _ _ p d).trans ?_
  exact congrArg (fun f : Fin 128 → EReal => (Finset.univ : Finset (Fin 128)).fold max negInf f) (funext fun l => pairBlock_apply x0 x1 p d l)

/-- The new running maximum per (p, d): one step of the running maximum over this block's columns. -/
theorem newMax1_apply (x0 x1 s0 : Vec Ideal S128x64 .f32) (p : Fin 128) (d : Fin 64) :
    k0_pay17 (F := Ideal) x0 (k0_pay12 x1) (k0_pay13 x1) s0 (ix2 p d)
      = stepMax (s0 (ix2 p d)) (fun l => term x0 x1 p d l) := by
  unfold k0_pay17 k0_pay15
  try dsimp only
  rw [shapeCast_self, maximumf_apply, laneMax_apply]
  rfl

/-- The same value before the trailing identity cast (the body uses it twice). -/
theorem newMax1_apply' (x0 x1 s0 : Vec Ideal S128x64 .f32) (p : Fin 128) (d : Fin 64) :
    k0_pay15 (F := Ideal) x0 (k0_pay12 x1) (k0_pay13 x1) s0 (ix2 p d)
      = stepMax (s0 (ix2 p d)) (fun l => term x0 x1 p d l) := by
  unfold k0_pay15
  try dsimp only
  rw [maximumf_apply, laneMax_apply]
  rfl

/-- The new rescaled exp-sum per (p, d): the old sum times exp(old max − new max), plus the block's exponentials. -/
theorem newSum1_apply (x0 x1 s0 s1 : Vec Ideal S128x64 .f32) (p : Fin 128) (d : Fin 64) :
    k0_pay16 (F := Ideal) x0 (k0_pay12 x1) (k0_pay13 x1) s0 s0 s1 (ix2 p d)
      = stepSum (s0 (ix2 p d)) (s1 (ix2 p d)) (fun l => term x0 x1 p d l) := by
  unfold k0_pay16
  try dsimp only
  rw [shapeCast_self, addf_apply, mulf_apply]
  refine congrArg₂ (· + ·) ?_ ?_
  · show s1 (ix2 p d) * Ideal.exp (s0 (ix2 p d) - k0_pay15 (F := Ideal) x0 (k0_pay12 x1) (k0_pay13 x1) s0 (ix2 p d)) = _
    rw [newMax1_apply']
  · refine (Cert.LastAxis.lastSum_apply _ _ _ _ _ p d).trans ?_
    refine Finset.sum_congr rfl fun l _ => ?_
    show Ideal.exp (k0_pay14 (F := Ideal) x0 (k0_pay12 x1) (k0_pay13 x1) (ix3 p d l)
      - broadcastTo S128x64x128 (shapeCast S128x64x1 (k0_pay15 (F := Ideal) x0 (k0_pay12 x1) (k0_pay13 x1) s0) shapeCasts_S128x64_S128x64x1)
          broadcasts_S128x64x1_S128x64x128 (ix3 p d l)) = _
    rw [pairBlock_apply, Cert.SlabLayout.broadcastTo_ab1_abc_apply, Cert.SlabLayout.shapeCast_ab_ab1_apply, newMax1_apply']

/-- The sums over the latent coordinate, at (p, l). -/
theorem rowSums_apply (x0 x1 : Vec Ideal S128x64 .f32) (p : Fin 128) (l : Fin 128) :
    k0_pay18 (F := Ideal) x0 (k0_pay12 x1) (k0_pay13 x1) (ix2 p l) = ∑ d : Fin 64, term x0 x1 p d l := by
  unfold k0_pay18
  try dsimp only
  refine (Cert.SlabLayout.midSum_apply _ _ _ _ _ p l).trans ?_
  exact Finset.sum_congr rfl fun d _ => pairBlock_apply x0 x1 p d l

/-- The new running maximum per row p (a [128,1] column). -/
theorem newMax2_apply (x0 x1 : Vec Ideal S128x64 .f32) (s2 : Vec Ideal S128x1 .f32) (p : Fin 128) :
    k0_pay19 (F := Ideal) x0 (k0_pay12 x1) (k0_pay13 x1) s2 (ix2 p (0 : Fin 1))
      = stepMax (s2 (ix2 p (0 : Fin 1))) (fun l => ∑ d : Fin 64, term x0 x1 p d l) := by
  unfold k0_pay19
  try dsimp only
  rw [maximumf_apply, Cert.KeepdimsColumn.shapeCast_a_a1_apply]
  refine congrArg (max _) ?_
  refine (Cert.SlabLayout.rowMax_apply _ _ _ _ _ p).trans ?_
  exact congrArg (fun f : Fin 128 → EReal => (Finset.univ : Finset (Fin 128)).fold max negInf f) (funext fun l => rowSums_apply x0 x1 p l)

/-- The new rescaled exp-sum per row p. -/
theorem newSum2_apply (x0 x1 : Vec Ideal S128x64 .f32) (s2 s3 : Vec Ideal S128x1 .f32) (p : Fin 128) :
    k0_pay1 (F := Ideal) (k0_pay18 x0 (k0_pay12 x1) (k0_pay13 x1)) (k0_pay19 x0 (k0_pay12 x1) (k0_pay13 x1) s2) s2 s3
        (ix2 p (0 : Fin 1))
      = stepSum (s2 (ix2 p (0 : Fin 1))) (s3 (ix2 p (0 : Fin 1))) (fun l => ∑ d : Fin 64, term x0 x1 p d l) := by
  unfold k0_pay1
  try dsimp only
  rw [shapeCast_self, addf_apply, mulf_apply, Cert.KeepdimsColumn.shapeCast_a_a1_apply]
  refine congrArg₂ (· + ·) ?_ ?_
  · show s3 (ix2 p (0 : Fin 1)) * Ideal.exp (s2 (ix2 p (0 : Fin 1))
      - k0_pay19 (F := Ideal) x0 (k0_pay12 x1) (k0_pay13 x1) s2 (ix2 p (0 : Fin 1))) = _
    rw [newMax2_apply]
  · refine (Cert.SlabLayout.rowSum_apply _ _ _ _ _ p).trans ?_
    refine Finset.sum_congr rfl fun l _ => ?_
    show Ideal.exp (k0_pay18 (F := Ideal) x0 (k0_pay12 x1) (k0_pay13 x1) (ix2 p l)
      - broadcastTo S128x128 (k0_pay19 (F := Ideal) x0 (k0_pay12 x1) (k0_pay13 x1) s2) broadcasts_S128x1_S128x128 (ix2 p l)) = _
    rw [rowSums_apply, Cert.KeepdimsColumn.broadcastTo_a1_ab_apply, newMax2_apply]

/-- The new pixel row sum: the old one plus the Bernoulli terms of this stripe. -/
theorem newPx_apply (x2 x3 : Vec Ideal S128x1536 .f32) (s4 : Vec Ideal S128x1 .f32) (p : Fin 128) :
    k0_pay11 (F := Ideal) x2 x3 s4 (ix2 p (0 : Fin 1))
      = s4 (ix2 p (0 : Fin 1)) + ∑ q : Fin 1536, bern (x2 (ix2 p q)) (x3 (ix2 p q)) := by
  unfold k0_pay11
  try dsimp only
  rw [shapeCast_self, addf_apply, Cert.KeepdimsColumn.shapeCast_a_a1_apply]
  refine congrArg (_ + ·) ?_
  refine (Cert.SlabLayout.rowSum_apply _ _ _ _ _ p).trans ?_
  exact Finset.sum_congr rfl fun q _ => rfl

/-! The values the first grid step of a row block stores before accumulating. -/

theorem init0_apply (j : S128x64.Idx) : k0_pay6 (F := Ideal) j = negInf := by
  unfold k0_pay6; (try dsimp only); rw [shapeCast_self]; rfl
theorem init1_apply (j : S128x64.Idx) : k0_pay7 (F := Ideal) j = zero := by
  unfold k0_pay7; (try dsimp only); rw [shapeCast_self]; rfl
theorem init2_apply (j : S128x1.Idx) : k0_pay8 (F := Ideal) j = negInf := by
  unfold k0_pay8; (try dsimp only); rw [shapeCast_self]; rfl
theorem init3_apply (j : S128x1.Idx) : k0_pay9 (F := Ideal) j = zero := by
  unfold k0_pay9; (try dsimp only); rw [shapeCast_self]; rfl
theorem init4_apply (j : S128x1.Idx) : k0_pay10 (F := Ideal) j = zero := by
  unfold k0_pay10; (try dsimp only); rw [shapeCast_self]; rfl

/-! A [128,1] column written out as a vector. -/

theorem drop2_apply (v : Vec Ideal S128x1 .f32) (p : Fin 128) : k0_pay3 (F := Ideal) v (ix1 p) = v (ix2 p (0 : Fin 1)) := by
  unfold k0_pay3; (try dsimp only); exact Cert.BlockSpread.shapeCast_a1_a_apply _ _ p
theorem drop3_apply (v : Vec Ideal S128x1 .f32) (p : Fin 128) : k0_pay4 (F := Ideal) v (ix1 p) = v (ix2 p (0 : Fin 1)) := by
  unfold k0_pay4; (try dsimp only); exact Cert.BlockSpread.shapeCast_a1_a_apply _ _ p
theorem drop4_apply (v : Vec Ideal S128x1 .f32) (p : Fin 128) : k0_pay5 (F := Ideal) v (ix1 p) = v (ix2 p (0 : Fin 1)) := by
  unfold k0_pay5; (try dsimp only); exact Cert.BlockSpread.shapeCast_a1_a_apply _ _ p

/-- The new second running maximum as stored (after the identity cast). -/
theorem newMax2_stored (x0 x1 : Vec Ideal S128x64 .f32) (s2 : Vec Ideal S128x1 .f32) (p : Fin 128) :
    k0_pay2 (F := Ideal) (k0_pay19 x0 (k0_pay12 x1) (k0_pay13 x1) s2) (ix2 p (0 : Fin 1))
      = stepMax (s2 (ix2 p (0 : Fin 1))) (fun l => ∑ d : Fin 64, term x0 x1 p d l) := by
  unfold k0_pay2; (try dsimp only); rw [shapeCast_self, newMax2_apply]

end Cert.Tcvae.Block

end
-- ==== Proof.Accum.lean ====
/-
  The carried accumulators after every grid point, entry by entry, in closed form — by induction on the point.

  Write the point as t = 8·b + k (row block b = t / 8, column block k = t % 8) and i for row p of row block b. After
  point t the five accumulators hold, at row p (and latent coordinate d):
    the running maximum and rescaled exp-sum, after blocks 0 … k, of the columns' Gaussian terms   runMS (g1 i d) k
    the same of their sums over d                                                                  runMS (g2 i) k
    the pixel row sum over stripes 0 … k                                                           runAdd (g4 i) k
  At k = 0 the step starts from the values −∞ / 0 the body stores first; at k > 0 from what point t − 1 left, which is
  the same row block's state one block earlier. At k = 7 the output blocks are these accumulators.
-/
import proofs.«119960_j71159018160768_2_alg».proof.Proof.Carried
import proofs.«119960_j71159018160768_2_alg».proof.Proof.BlockTerms
import proofs.«119960_j71159018160768_2_alg».proof.Proof.Blocks

set_option maxRecDepth 16384

noncomputable section

namespace Cert.Tcvae.Accum

open Idealize.ShloMosaic Idealize.ShloMosaic.ValueIdx Idealize.ShloMosaic.TcCoe Idealize.SL.Sem
open Cert.KernelIdeal Cert.KernelIdeal.Gen Cert.KernelIdeal.GenP
open Cert.Tcvae Cert.Tcvae.Pieces Cert.Tcvae.Blocks

variable (m : (ℓ : Loc nD τ sig) → Buf (Elt Ideal) ℓ) (c : Dev nD)

/-- The four argument arrays that are read. -/
abbrev tg : PixArr := m ((c : Thread nD τ).loc main_arg0)
abbrev xm : PixArr := m ((c : Thread nD τ).loc main_arg1)
abbrev zm : LatArr := m ((c : Thread nD τ).loc main_arg3)
abbrev lv : LatArr := m ((c : Thread nD τ).loc main_arg4)

/-- Sample i, coordinate d: the Gaussian terms against column l of block k. -/
def g1 (i : Fin 1024) (d : Fin 64) : ℕ → Fin 128 → EReal := fun k l => pairK (zm m c) (lv m c) i d (colAt k l)
/-- Sample i: their sums over d. -/
def g2 (i : Fin 1024) : ℕ → Fin 128 → EReal := fun k l => rowSK (zm m c) (lv m c) i (colAt k l)
/-- Sample i: the Bernoulli terms of pixel stripe k, summed. -/
def g4 (i : Fin 1024) : ℕ → EReal :=
  fun k => ∑ q : Fin 1536, bern (tg m c (ix2 i (pixAt k q))) (xm m c (ix2 i (pixAt k q)))

/-- The Gaussian term of the point's two latent blocks is the arrays' term at the global row and column. -/
theorem term_eq (t : Fin cfg0.N) (b k : ℕ) (hb : t.val / 8 = b) (hk : t.val % 8 = k) (p : Fin 128) (d : Fin 64) (l : Fin 128) :
    Block.term (iblk m c 0 t) (iblk m c 1 t) p d l = g1 m c (rowAt b p) d k l := by
  subst hb hk
  show gaussK ((iblk m c 0 t : Vec Ideal S128x64 .f32) (ix2 p d)) ((iblk m c 1 t : Vec Ideal S128x64 .f32) (ix2 l d)) = _
  rw [iblk0_apply m c t p d, iblk1_apply m c t l d]
  rfl

theorem sumTerm_eq (t : Fin cfg0.N) (b k : ℕ) (hb : t.val / 8 = b) (hk : t.val % 8 = k) (p : Fin 128) (l : Fin 128) :
    (∑ d : Fin 64, Block.term (iblk m c 0 t) (iblk m c 1 t) p d l) = g2 m c (rowAt b p) k l :=
  Finset.sum_congr rfl fun d _ => term_eq m c t b k hb hk p d l

theorem stripe_eq (t : Fin cfg0.N) (b k : ℕ) (hb : t.val / 8 = b) (hk : t.val % 8 = k) (p : Fin 128) :
    (∑ q : Fin 1536, bern ((iblk m c 2 t : Vec Ideal S128x1536 .f32) (ix2 p q)) ((iblk m c 3 t : Vec Ideal S128x1536 .f32) (ix2 p q)))
      = g4 m c (rowAt b p) k := by
  subst hb hk
  refine Finset.sum_congr rfl fun q _ => ?_
  rw [iblk2_apply m c t p q, iblk3_apply m c t p q]

/-- The five accumulators after point n. -/
abbrev sc0 (n : ℕ) (h : n < cfg0.N) : Vec Ideal S128x64 .f32 := (outsAt0 m c n h).2.2.2.2.2.1
abbrev sc1 (n : ℕ) (h : n < cfg0.N) : Vec Ideal S128x64 .f32 := (outsAt0 m c n h).2.2.2.2.2.2.1
abbrev sc2 (n : ℕ) (h : n < cfg0.N) : Vec Ideal S128x1 .f32 := (outsAt0 m c n h).2.2.2.2.2.2.2.1
abbrev sc3 (n : ℕ) (h : n < cfg0.N) : Vec Ideal S128x1 .f32 := (outsAt0 m c n h).2.2.2.2.2.2.2.2.1
abbrev sc4 (n : ℕ) (h : n < cfg0.N) : Vec Ideal S128x1 .f32 := (outsAt0 m c n h).2.2.2.2.2.2.2.2.2

/-- The closed forms, after point n. -/
structure Inv (n : ℕ) (h : n < cfg0.N) : Prop where
  s0 : ∀ (p : Fin 128) (d : Fin 64), sc0 m c n h (ix2 p d) = (runMS (g1 m c (rowAt (n / 8) p) d) (n % 8)).1
  s1 : ∀ (p : Fin 128) (d : Fin 64), sc1 m c n h (ix2 p d) = (runMS (g1 m c (rowAt (n / 8) p) d) (n % 8)).2
  s2 : ∀ p : Fin 128, sc2 m c n h (ix2 p (0 : Fin 1)) = (runMS (g2 m c (rowAt (n / 8) p)) (n % 8)).1
  s3 : ∀ p : Fin 128, sc3 m c n h (ix2 p (0 : Fin 1)) = (runMS (g2 m c (rowAt (n / 8) p)) (n % 8)).2
  s4 : ∀ p : Fin 128, sc4 m c n h (ix2 p (0 : Fin 1)) = runAdd (g4 m c (rowAt (n / 8) p)) (n % 8)

/-- At the first column block of a row block: one step from −∞ / 0. -/
theorem inv_first (t : Fin cfg0.N) (h0 : t.val % 8 = 0) : Inv m c t.val t.isLt where
  s0 := fun p d => by
    have e : (runMS (g1 m c (rowAt (t.val / 8) p) d) (t.val % 8)).1 = stepMax negInf (g1 m c (rowAt (t.val / 8) p) d 0) := by
      rw [h0]; rfl
    refine ((congrFun (Carried.s0_first m c t h0) (ix2 p d)).trans ?_).trans e.symm
    refine (Block.newMax1_apply (iblk m c 0 t) (iblk m c 1 t) (k0_pay6 (F := Ideal)) p d).trans ?_
    rw [Block.init0_apply]
    exact congrArg (stepMax negInf) (funext fun l => term_eq m c t _ 0 rfl h0 p d l)
  s1 := fun p d => by
    have e : (runMS (g1 m c (rowAt (t.val / 8) p) d) (t.val % 8)).2 = stepSum negInf zero (g1 m c (rowAt (t.val / 8) p) d 0) := by
      rw [h0]; rfl
    refine ((congrFun (Carried.s1_first m c t h0) (ix2 p d)).trans ?_).trans e.symm
    refine (Block.newSum1_apply (iblk m c 0 t) (iblk m c 1 t) (k0_pay6 (F := Ideal)) (k0_pay7 (F := Ideal)) p d).trans ?_
    rw [Block.init0_apply, Block.init1_apply]
    exact congrArg (stepSum negInf zero) (funext fun l => term_eq m c t _ 0 rfl h0 p d l)
  s2 := fun p => by
    have e : (runMS (g2 m c (rowAt (t.val / 8) p)) (t.val % 8)).1 = stepMax negInf (g2 m c (rowAt (t.val / 8) p) 0) := by
      rw [h0]; rfl
    refine ((congrFun (Carried.s2_first m c t h0) (ix2 p (0 : Fin 1))).trans ?_).trans e.symm
    refine (Block.newMax2_stored (iblk m c 0 t) (iblk m c 1 t) (k0_pay8 (F := Ideal)) p).trans ?_
    rw [Block.init2_apply]
    exact congrArg (stepMax negInf) (funext fun l => sumTerm_eq m c t _ 0 rfl h0 p l)
  s3 := fun p => by
    have e : (runMS (g2 m c (rowAt (t.val / 8) p)) (t.val % 8)).2 = stepSum negInf zero (g2 m c (rowAt (t.val / 8) p) 0) := by
      rw [h0]; rfl
    refine ((congrFun (Carried.s3_first m c t h0) (ix2 p (0 : Fin 1))).trans ?_).trans e.symm
    refine (Block.newSum2_apply (iblk m c 0 t) (iblk m c 1 t) (k0_pay8 (F := Ideal)) (k0_pay9 (F := Ideal)) p).trans ?_
    rw [Block.init2_apply, Block.init3_apply]
    exact congrArg (stepSum negInf zero) (funext fun l => sumTerm_eq m c t _ 0 rfl h0 p l)
  s4 := fun p => by
    have e : runAdd (g4 m c (rowAt (t.val / 8) p)) (t.val % 8) = zero + g4 m c (rowAt (t.val / 8) p) 0 := by
      rw [h0]; rfl
    refine ((congrFun (Carried.s4_first m c t h0) (ix2 p (0 : Fin 1))).trans ?_).trans e.symm
    refine (Block.newPx_apply (iblk m c 2 t) (iblk m c 3 t) (k0_pay10 (F := Ideal)) p).trans ?_
    rw [Block.init4_apply]
    exact congrArg (zero + ·) (stripe_eq m c t _ 0 rfl h0 p)

/-- At any other point: one step from what the point before left, in the same row block. -/
theorem inv_next (n : ℕ) (h : n + 1 < cfg0.N) (h0 : ¬(n + 1) % 8 = 0) (ih : Inv m c n (Nat.lt_of_succ_lt h)) :
    Inv m c (n + 1) h := by
  have eb : (n + 1) / 8 = n / 8 := by omega
  have ek : (n + 1) % 8 = n % 8 + 1 := by omega
  have h0' : ¬(⟨n + 1, h⟩ : Fin cfg0.N).val % 8 = 0 := h0
  constructor
  · intro p d
    show (outsAt0 m c (⟨n + 1, h⟩ : Fin cfg0.N).val (⟨n + 1, h⟩ : Fin cfg0.N).isLt).2.2.2.2.2.1 (ix2 p d) = _
    rw [Carried.s0_next m c ⟨n + 1, h⟩ h0', eb, ek]
    refine (Block.newMax1_apply (iblk m c 0 ⟨n + 1, h⟩) (iblk m c 1 ⟨n + 1, h⟩) _ p d).trans ?_
    show stepMax (sc0 m c n _ (ix2 p d)) _ = stepMax (runMS (g1 m c (rowAt (n / 8) p) d) (n % 8)).1 (g1 m c (rowAt (n / 8) p) d (n % 8 + 1))
    rw [ih.s0 p d]
    exact congrArg (stepMax _) (funext fun l => term_eq m c ⟨n + 1, h⟩ _ _ eb ek p d l)
  · intro p d
    show (outsAt0 m c (⟨n + 1, h⟩ : Fin cfg0.N).val (⟨n + 1, h⟩ : Fin cfg0.N).isLt).2.2.2.2.2.2.1 (ix2 p d) = _
    rw [Carried.s1_next m c ⟨n + 1, h⟩ h0', eb, ek]
    refine (Block.newSum1_apply (iblk m c 0 ⟨n + 1, h⟩) (iblk m c 1 ⟨n + 1, h⟩) _ _ p d).trans ?_
    show stepSum (sc0 m c n _ (ix2 p d)) (sc1 m c n _ (ix2 p d)) _
      = stepSum (runMS (g1 m c (rowAt (n / 8) p) d) (n % 8)).1 (runMS (g1 m c (rowAt (n / 8) p) d) (n % 8)).2 (g1 m c (rowAt (n / 8) p) d (n % 8 + 1))
    rw [ih.s0 p d, ih.s1 p d]
    exact congrArg (stepSum _ _) (funext fun l => term_eq m c ⟨n + 1, h⟩ _ _ eb ek p d l)
  · intro p
    show (outsAt0 m c (⟨n + 1, h⟩ : Fin cfg0.N).val (⟨n + 1, h⟩ : Fin cfg0.N).isLt).2.2.2.2.2.2.2.1 (ix2 p (0 : Fin 1)) = _
    rw [Carried.s2_next m c ⟨n + 1, h⟩ h0', eb, ek]
    refine (Block.newMax2_stored (iblk m c 0 ⟨n + 1, h⟩) (iblk m c 1 ⟨n + 1, h⟩) _ p).trans ?_
    show stepMax (sc2 m c n _ (ix2 p (0 : Fin 1))) _ = stepMax (runMS (g2 m c (rowAt (n / 8) p)) (n % 8)).1 (g2 m c (rowAt (n / 8) p) (n % 8 + 1))
    rw [ih.s2 p]
    exact congrArg (stepMax _) (funext fun l => sumTerm_eq m c ⟨n + 1, h⟩ _ _ eb ek p l)
  · intro p
    show (outsAt0 m c (⟨n + 1, h⟩ : Fin cfg0.N).val (⟨n + 1, h⟩ : Fin cfg0.N).isLt).2.2.2.2.2.2.2.2.1 (ix2 p (0 : Fin 1)) = _
    rw [Carried.s3_next m c ⟨n + 1, h⟩ h0', eb, ek]
    refine (Block.newSum2_apply (iblk m c 0 ⟨n + 1, h⟩) (iblk m c 1 ⟨n + 1, h⟩) _ _ p).trans ?_
    show stepSum (sc2 m c n _ (ix2 p (0 : Fin 1))) (sc3 m c n _ (ix2 p (0 : Fin 1))) _
      = stepSum (runMS (g2 m c (rowAt (n / 8) p)) (n % 8)).1 (runMS (g2 m c (rowAt (n / 8) p)) (n % 8)).2 (g2 m c (rowAt (n / 8) p) (n % 8 + 1))
    rw [ih.s2 p, ih.s3 p]
    exact congrArg (stepSum _ _) (funext fun l => sumTerm_eq m c ⟨n + 1, h⟩ _ _ eb ek p l)
  · intro p
    show (outsAt0 m c (⟨n + 1, h⟩ : Fin cfg0.N).val (⟨n + 1, h⟩ : Fin cfg0.N).isLt).2.2.2.2.2.2.2.2.2 (ix2 p (0 : Fin 1)) = _
    rw [Carried.s4_next m c ⟨n + 1, h⟩ h0', eb, ek]
    refine (Block.newPx_apply (iblk m c 2 ⟨n + 1, h⟩) (iblk m c 3 ⟨n + 1, h⟩) _ p).trans ?_
    show sc4 m c n _ (ix2 p (0 : Fin 1)) + _ = runAdd (g4 m c (rowAt (n / 8) p)) (n % 8) + g4 m c (rowAt (n / 8) p) (n % 8 + 1)
    rw [ih.s4 p]
    exact congrArg (_ + ·) (stripe_eq m c ⟨n + 1, h⟩ _ _ eb ek p)

/-- The closed forms hold after every point. -/
theorem inv : ∀ (n : ℕ) (h : n < cfg0.N), Inv m c n h
  | 0, h => inv_first m c ⟨0, h⟩ rfl
  | n + 1, h => by
    by_cases h0 : (n + 1) % 8 = 0
    · exact inv_first m c ⟨n + 1, h⟩ h0
    · exact inv_next m c n h h0 (inv n (Nat.lt_of_succ_lt h))

/-! ## The output blocks at the last column block of a row block -/

theorem out4_apply (t : Fin cfg0.N) (h1 : t.val % 8 = 7) (p : Fin 128) (d : Fin 64) :
    (outsAt0 m c t.val t.isLt).1 (ix2 p d) = (ms1K (zm m c) (lv m c) (rowAt (t.val / 8) p) d).1 := by
  have h0 : ¬t.val % 8 = 0 := by omega
  rw [Carried.o4_last m c t h1, ← Carried.s0_next m c t h0]
  exact ((inv m c t.val t.isLt).s0 p d).trans (by rw [h1]; rfl)

theorem out5_apply (t : Fin cfg0.N) (h1 : t.val % 8 = 7) (p : Fin 128) (d : Fin 64) :
    (outsAt0 m c t.val t.isLt).2.1 (ix2 p d) = (ms1K (zm m c) (lv m c) (rowAt (t.val / 8) p) d).2 := by
  have h0 : ¬t.val % 8 = 0 := by omega
  rw [Carried.o5_last m c t h1, ← Carried.s1_next m c t h0]
  exact ((inv m c t.val t.isLt).s1 p d).trans (by rw [h1]; rfl)

theorem out6_apply (t : Fin cfg0.N) (h1 : t.val % 8 = 7) (p : Fin 128) :
    (outsAt0 m c t.val t.isLt).2.2.1 (ix1 p) = (ms2K (zm m c) (lv m c) (rowAt (t.val / 8) p)).1 := by
  have h0 : ¬t.val % 8 = 0 := by omega
  rw [Carried.o6_last m c t h1, ← Carried.s2_next m c t h0]
  refine (Block.drop2_apply _ p).trans ?_
  exact ((inv m c t.val t.isLt).s2 p).trans (by rw [h1]; rfl)

theorem out7_apply (t : Fin cfg0.N) (h1 : t.val % 8 = 7) (p : Fin 128) :
    (outsAt0 m c t.val t.isLt).2.2.2.1 (ix1 p) = (ms2K (zm m c) (lv m c) (rowAt (t.val / 8) p)).2 := by
  have h0 : ¬t.val % 8 = 0 := by omega
  rw [Carried.o7_last m c t h1, ← Carried.s3_next m c t h0]
  refine (Block.drop3_apply _ p).trans ?_
  exact ((inv m c t.val t.isLt).s3 p).trans (by rw [h1]; rfl)

theorem out8_apply (t : Fin cfg0.N) (h1 : t.val % 8 = 7) (p : Fin 128) :
    (outsAt0 m c t.val t.isLt).2.2.2.2.1 (ix1 p) = pxRowK (tg m c) (xm m c) (rowAt (t.val / 8) p) := by
  have h0 : ¬t.val % 8 = 0 := by omega
  rw [Carried.o8_last m c t h1, ← Carried.s4_next m c t h0]
  refine (Block.drop4_apply _ p).trans ?_
  exact ((inv m c t.val t.isLt).s4 p).trans (by rw [h1]; rfl)

end Cert.Tcvae.Accum

end
-- ==== Proof.KernelTail.lean ====
/-
  The host lines after the kernel: what they leave in the result buffer is the Spec's `combine` of
    the mean of the pixel row sums,                         (Σ_i o4 i) / 1024,
    the prior term pz, recomputed from the latent arguments term for term as the reference spells it,
    the product-of-marginals term                           64·(log (Σ_{i,d} o1 i d) − log NM) + Σ_d o0 i d,
    the joint term                                          (log (Σ_i o3 i) + o2 i) − log NM,
  where o0 … o4 are the kernel's five results. Each host operation is read at an index: the pointwise ones by
  definition, a scalar broadcast as the scalar, a float sum from the word of zero as the sum over the dropped axis's
  coordinates (one axis) or over all coordinates (every axis). The operand order of every add, subtract and multiply is
  the program's: the constant 64 multiplies on the left, each broadcast logarithm is the left summand.
-/
import proofs.«119960_j71159018160768_2_alg».proof.Proof.Gen.KernelIdeal.Launch
import proofs.«119960_j71159018160768_2_alg».proof.Proof.Spec
import Idealize.ShloMosaic.Lib.StableHlo.Run
import Idealize.ShloMosaic.Lib.IdealHost
import Idealize.ShloMosaic.Lib.ValueIdx
import Idealize.ShloMosaic.PureOps.Ideal.Laws

noncomputable section

namespace Cert.Tcvae.Tail

open Cert.KernelIdeal Cert.KernelIdeal.Gen Idealize.ShloMosaic Idealize.ShloMosaic.StableHlo Idealize.ShloMosaic.ValueIdx

/-- The array types of the host lines, at the ideal values. -/
abbrev Lat : Type := (⟨S1024x64, .f32⟩ : BufTy).Contents (Elt Ideal)
abbrev Vec1 : Type := (⟨S1024, .f32⟩ : BufTy).Contents (Elt Ideal)
abbrev Scal : Type := (⟨S_, .f32⟩ : BufTy).Contents (Elt Ideal)

/-- The loss as the host lines compute it from the kernel's five results: the running maxima o0 [1024, 64] and exp-sums
    o1 [1024, 64] of the pair term, the running maxima o2 [1024] and exp-sums o3 [1024] of the row sums, and the pixel
    row sums o4 [1024]. -/
def lossOf (o0 o1 : LatArr) (o2 o3 o4 : (⟨1, ![1024]⟩ : Shape).Idx → EReal) (zm lv : LatArr) : EReal :=
  combine (Ideal.div (∑ i : Fin 1024, o4 (ix1 i)) n1024) (pz zm lv)
    (fun i => d64 * (Ideal.log (∑ i : Fin 1024, ∑ d : Fin 64, o1 (ix2 i d)) - logNM) + ∑ d : Fin 64, o0 (ix2 i d))
    (fun i => (Ideal.log (∑ i : Fin 1024, o3 (ix1 i)) + o2 (ix1 i)) - logNM)

/-! ## Sums over a rank-one index set, and the three host sums from zero -/

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A [1024, 64] array summed over its second axis from zero, at row a. -/
theorem reduceAdd_rows (x : Lat) (a : Fin 1024) :
    Host.reduceAdd (F := Ideal) x (constant S_ .f32 0x00000000#32) reducesTo_S1024x64_S1024_d1 h_S_ (ix1 a)
      = ∑ d : Fin 64, x (ix2 a d) := by
  have h : S1024x64.Reduces [1] S1024 := by decide
  simp only [Host.reduceAdd, Ideal.hostReduceAdd_def]
  rw [Ideal.hostReduceAdd_single reducesTo_S1024x64_S1024_d1 h, constant_apply, Ideal.ofBits_zero_f32, zero_add]
  refine Finset.sum_congr rfl fun k _ => congrArg x ?_
  funext c; apply Fin.ext
  fin_cases c <;> rfl

/-- A [1024] array summed from zero. -/
theorem reduceAdd_all1 (x : Vec1) (i : S_.Idx) :
    Host.reduceAdd (F := Ideal) x (constant S_ .f32 0x00000000#32) reducesTo_S1024_S_d0 h_S_ i
      = ∑ a : Fin 1024, x (ix1 a) := by
  simp only [Host.reduceAdd, Ideal.hostReduceAdd_def]
  rw [Ideal.hostReduceAdd_total reducesTo_S1024_S_d0 (fun b => b.elim0), constant_apply, Ideal.ofBits_zero_f32,
    zero_add, sum_idx1]

/-- A [1024, 64] array summed over both axes from zero. -/
theorem reduceAdd_all2 (x : Lat) (i : S_.Idx) :
    Host.reduceAdd (F := Ideal) x (constant S_ .f32 0x00000000#32) reducesTo_S1024x64_S_d0_1 h_S_ i
      = ∑ a : Fin 1024, ∑ d : Fin 64, x (ix2 a d) := by
  simp only [Host.reduceAdd, Ideal.hostReduceAdd_def]
  rw [Ideal.hostReduceAdd_total reducesTo_S1024x64_S_d0_1 (fun b => b.elim0), constant_apply, Ideal.ofBits_zero_f32,
    zero_add, sum_idx2]

/-! ## The host's unary operations at an index -/

theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl
theorem hostNegf_apply {s : Shape} (x : FVec Ideal s .f32) (i : s.Idx) : Host.negf x i = -(x i) := rfl

/-! ## The composed terms of the host lines -/

/-- Lines 1–2: the mean of the pixel row sums. -/
def pxT (o4 : Vec1) : Scal :=
  Host.divf (Host.reduceAdd (F := Ideal) o4 (constant S_ .f32 0x00000000#32) reducesTo_S1024_S_d0 h_S_)
    (constant S_ .f32 0x44800000#32)

/-- Lines 3–13: the prior term. -/
def pzT (zm lv : Lat) : Vec1 :=
  Host.reduceAdd (F := Ideal)
    (mulf (broadcastInDim S1024x64 ![] bcast_S_S1024x64 (constant S_ .f32 0xBF000000#32))
      (addf
        (addf lv
          (Host.divf (mulf zm zm)
            (addf (Host.exp lv) (broadcastInDim S1024x64 ![] bcast_S_S1024x64 (constant S_ .f32 0x33D6BF95#32)))))
        (broadcastInDim S1024x64 ![] bcast_S_S1024x64 (constant S_ .f32 0x3FEB3F8E#32))))
    (constant S_ .f32 0x00000000#32) reducesTo_S1024x64_S1024_d1 h_S_

/-- The joint term. -/
def qzT (o2 o3 : Vec1) : Vec1 :=
  subf
    (addf
      (broadcastInDim S1024 ![] bcast_S_S1024
        (Host.log (Host.reduceAdd (F := Ideal) o3 (constant S_ .f32 0x00000000#32) reducesTo_S1024_S_d0 h_S_)))
      o2)
    (broadcastInDim S1024 ![] bcast_S_S1024 (constant S_ .f32 0x41A3899D#32))

/-- The product-of-marginals term. -/
def qzpT (o0 o1 : Lat) : Vec1 :=
  addf
    (broadcastInDim S1024 ![] bcast_S_S1024
      (mulf (constant S_ .f32 0x42800000#32)
        (subf
          (Host.log (Host.reduceAdd (F := Ideal) o1 (constant S_ .f32 0x00000000#32) reducesTo_S1024x64_S_d0_1 h_S_))
          (constant S_ .f32 0x41A3899D#32))))
    (Host.reduceAdd (F := Ideal) o0 (constant S_ .f32 0x00000000#32) reducesTo_S1024x64_S1024_d1 h_S_)

/-- The last lines. -/
def lossT (o0 o1 : Lat) (o2 o3 o4 : Vec1) (zm lv : Lat) : Scal :=
  Host.negf
    (Host.divf
      (Host.reduceAdd (F := Ideal)
        (subf
          (subf
            (subf (broadcastInDim S1024 ![] bcast_S_S1024 (pxT o4)) (subf (pzT zm lv) (qzT o2 o3)))
            (mulf (broadcastInDim S1024 ![] bcast_S_S1024 (constant S_ .f32 0x40C00000#32))
              (subf (qzT o2 o3) (qzpT o0 o1))))
          (subf (qzpT o0 o1) (pzT zm lv)))
        (constant S_ .f32 0x00000000#32) reducesTo_S1024_S_d0 h_S_)
      (constant S_ .f32 0x44800000#32))

theorem pxT_apply (o4 : Vec1) (i : S_.Idx) : pxT o4 i = Ideal.div (∑ a : Fin 1024, o4 (ix1 a)) n1024 := by
  unfold pxT
  rw [hostDivf_apply, reduceAdd_all1, constant_apply]
  rfl

theorem pzT_apply (zm lv : Lat) (a : Fin 1024) : pzT zm lv (ix1 a) = pz zm lv a := by
  unfold pzT
  rw [reduceAdd_rows]
  unfold pz
  refine Finset.sum_congr rfl fun d _ => ?_
  rw [mulf_apply, addf_apply, addf_apply, hostDivf_apply, mulf_apply, addf_apply, hostExp_apply,
    broadcastInDim_scalar_apply, broadcastInDim_scalar_apply, broadcastInDim_scalar_apply, constant_apply,
    constant_apply, constant_apply]
  rfl

theorem qzT_apply (o2 o3 : Vec1) (a : Fin 1024) :
    qzT o2 o3 (ix1 a) = (Ideal.log (∑ i : Fin 1024, o3 (ix1 i)) + o2 (ix1 a)) - logNM := by
  unfold qzT
  rw [subf_apply, addf_apply, broadcastInDim_scalar_apply, broadcastInDim_scalar_apply, hostLog_apply,
    reduceAdd_all1, constant_apply]
  rfl

theorem qzpT_apply (o0 o1 : Lat) (a : Fin 1024) :
    qzpT o0 o1 (ix1 a)
      = d64 * (Ideal.log (∑ i : Fin 1024, ∑ d : Fin 64, o1 (ix2 i d)) - logNM) + ∑ d : Fin 64, o0 (ix2 a d) := by
  unfold qzpT
  rw [addf_apply, broadcastInDim_scalar_apply, mulf_apply, subf_apply, hostLog_apply, reduceAdd_all2,
    reduceAdd_rows, constant_apply, constant_apply]
  rfl

theorem lossT_apply (o0 o1 : Lat) (o2 o3 o4 : Vec1) (zm lv : Lat) (i : S_.Idx) :
    lossT o0 o1 o2 o3 o4 zm lv i = lossOf o0 o1 o2 o3 o4 zm lv := by
  unfold lossT
  rw [hostNegf_apply, hostDivf_apply, reduceAdd_all1, constant_apply]
  unfold lossOf combine n1024
  refine congrArg (fun s => -(Ideal.div s _)) (Finset.sum_congr rfl fun a _ => ?_)
  rw [subf_apply, subf_apply, subf_apply, subf_apply, mulf_apply, subf_apply, subf_apply,
    broadcastInDim_scalar_apply, broadcastInDim_scalar_apply, constant_apply, pxT_apply, pzT_apply, qzT_apply,
    qzpT_apply]
  rfl

/-- What the host lines leave in the result buffer, from ANY contents of the program's buffers: the loss of the
    kernel's five results and the two latent arguments. -/
theorem tail_value (W : Valuation τ sig (Elt Ideal)) :
    StableHlo.after (hostOps1 (F := Ideal)) W (Proc.devRef .tc main_v38)
      = fun _ => lossOf (W (Proc.devRef .tc main_v0_0)) (W (Proc.devRef .tc main_v0_1)) (W (Proc.devRef .tc main_v0_2))
          (W (Proc.devRef .tc main_v0_3)) (W (Proc.devRef .tc main_v0_4)) (W (Proc.devRef .tc main_arg3))
          (W (Proc.devRef .tc main_arg4)) := by
  funext i
  after_results_simp
  exact lossT_apply (W (Proc.devRef .tc main_v0_0)) (W (Proc.devRef .tc main_v0_1)) (W (Proc.devRef .tc main_v0_2))
    (W (Proc.devRef .tc main_v0_3)) (W (Proc.devRef .tc main_v0_4)) (W (Proc.devRef .tc main_arg3))
    (W (Proc.devRef .tc main_arg4)) i

end Cert.Tcvae.Tail

end
-- ==== Proof.KernelValue.lean ====
/-
  The kernel program's result. After the run the five output arrays of the one region hold, row by row, the running
  maxima and rescaled exp-sums after all eight column blocks and the pixel row sums after all eight stripes (the
  closed forms of the accumulators at the last column block of each row block, which is where each output block is
  written back); the host lines after the region combine them into the loss in the kernel's arrangement, lossK.
-/
import proofs.«119960_j71159018160768_2_alg».proof.Proof.FrameKIRun
import proofs.«119960_j71159018160768_2_alg».proof.Proof.Arrays
import proofs.«119960_j71159018160768_2_alg».proof.Proof.Accum
import proofs.«119960_j71159018160768_2_alg».proof.Proof.KernelTail
import Idealize.ShloMosaic.Lib.Pipeline.Value

set_option maxRecDepth 16384

noncomputable section

namespace Cert.Tcvae.KernelValue

open Idealize.ShloMosaic Idealize.ShloMosaic.ValueIdx Idealize.ShloMosaic.TcCoe Idealize.SL.Sem
open Cert.KernelIdeal Cert.KernelIdeal.Gen Cert.KernelIdeal.GenP
open Cert.Tcvae Cert.Tcvae.Blocks Cert.Tcvae.Accum

variable (m : (ℓ : Loc nD τ sig) → Buf (Elt Ideal) ℓ) (ρ : Dev nD → PrngReg)

/-- The running maxima per (sample, coordinate), as an array. -/
def M1 (c : Dev nD) : S1024x64.Idx → EReal := fun j => (ms1K (zm m c) (lv m c) (j 0) (j 1)).1
/-- The exp-sums per (sample, coordinate). -/
def T1 (c : Dev nD) : S1024x64.Idx → EReal := fun j => (ms1K (zm m c) (lv m c) (j 0) (j 1)).2
/-- The running maxima per sample. -/
def M2 (c : Dev nD) : S1024.Idx → EReal := fun j => (ms2K (zm m c) (lv m c) (j 0)).1
/-- The exp-sums per sample. -/
def T2 (c : Dev nD) : S1024.Idx → EReal := fun j => (ms2K (zm m c) (lv m c) (j 0)).2
/-- The pixel row sums. -/
def PX (c : Dev nD) : S1024.Idx → EReal := fun j => pxRowK (tg m c) (xm m c) (j 0)

theorem arr4_eq (c : Dev nD) : (dats m 0 c).arrAt 4 cfg0.N = M1 m c :=
  Cert.Tcvae.Arrays.arr4 m c (M1 m c) fun t h1 p d => out4_apply m c t h1 p d
theorem arr5_eq (c : Dev nD) : (dats m 0 c).arrAt 5 cfg0.N = T1 m c :=
  Cert.Tcvae.Arrays.arr5 m c (T1 m c) fun t h1 p d => out5_apply m c t h1 p d
theorem arr6_eq (c : Dev nD) : (dats m 0 c).arrAt 6 cfg0.N = M2 m c :=
  Cert.Tcvae.Arrays.arr6 m c (M2 m c) fun t h1 p => out6_apply m c t h1 p
theorem arr7_eq (c : Dev nD) : (dats m 0 c).arrAt 7 cfg0.N = T2 m c :=
  Cert.Tcvae.Arrays.arr7 m c (T2 m c) fun t h1 p => out7_apply m c t h1 p
theorem arr8_eq (c : Dev nD) : (dats m 0 c).arrAt 8 cfg0.N = PX m c :=
  Cert.Tcvae.Arrays.arr8 m c (PX m c) fun t h1 p => out8_apply m c t h1 p

/-- The loss of the five arrays is the kernel's arrangement of the loss. -/
theorem lossOf_eq (c : Dev nD) :
    Cert.Tcvae.Tail.lossOf (M1 m c) (T1 m c) (M2 m c) (T2 m c) (PX m c) (zm m c) (lv m c)
      = lossK (tg m c) (xm m c) (zm m c) (lv m c) := rfl

/-- The value of the result buffer after the host lines that follow the region. -/
theorem result_eq (c : Dev nD) :
    Pipeline.afterTail₀ cfgs (dats m) 0 (V0 m) [hostOps1] c main_v38
      = fun _ => lossK (tg m c) (xm m c) (zm m c) (lv m c) := by
  unfold Pipeline.afterTail₀
  simp only [List.flatten_cons, List.flatten_nil, List.append_nil]
  rw [Cert.Tcvae.Tail.tail_value]
  have e4 := (Pipeline.withArrays_arr spec0 launch0.win.arr_inj c (V0 m c) (fun w => (dats m 0 c).arrAt w (cfgs 0).N) 4).trans (arr4_eq m c)
  have e5 := (Pipeline.withArrays_arr spec0 launch0.win.arr_inj c (V0 m c) (fun w => (dats m 0 c).arrAt w (cfgs 0).N) 5).trans (arr5_eq m c)
  have e6 := (Pipeline.withArrays_arr spec0 launch0.win.arr_inj c (V0 m c) (fun w => (dats m 0 c).arrAt w (cfgs 0).N) 6).trans (arr6_eq m c)
  have e7 := (Pipeline.withArrays_arr spec0 launch0.win.arr_inj c (V0 m c) (fun w => (dats m 0 c).arrAt w (cfgs 0).N) 7).trans (arr7_eq m c)
  have e8 := (Pipeline.withArrays_arr spec0 launch0.win.arr_inj c (V0 m c) (fun w => (dats m 0 c).arrAt w (cfgs 0).N) 8).trans (arr8_eq m c)
  have e0 := (Pipeline.withArrays_arr spec0 launch0.win.arr_inj c (V0 m c) (fun w => (dats m 0 c).arrAt w (cfgs 0).N) 0).trans
    (((dats m 0 c).arrAt_in 0 rfl _).trans ((A_eq m c 0).trans (V_main_arg3 m c)))
  have e1 := (Pipeline.withArrays_arr spec0 launch0.win.arr_inj c (V0 m c) (fun w => (dats m 0 c).arrAt w (cfgs 0).N) 1).trans
    (((dats m 0 c).arrAt_in 1 rfl _).trans ((A_eq m c 1).trans (V_main_arg4 m c)))
  have key : ∀ (a0 a1 : S1024x64.Idx → EReal) (a2 a3 a4 : S1024.Idx → EReal) (z l : S1024x64.Idx → EReal),
      a0 = M1 m c → a1 = T1 m c → a2 = M2 m c → a3 = T2 m c → a4 = PX m c → z = zm m c → l = lv m c →
      Cert.Tcvae.Tail.lossOf a0 a1 a2 a3 a4 z l = lossK (tg m c) (xm m c) (zm m c) (lv m c) := by
    intro a0 a1 a2 a3 a4 z l h0 h1 h2 h3 h4 hz hl
    subst h0 h1 h2 h3 h4 hz hl
    exact lossOf_eq m c
  funext _
  exact key _ _ _ _ _ _ _ e4 e5 e6 e7 e8 e0 e1

/-- The run, read: the result buffer at the kernel's arrangement of the loss, the arguments unchanged. -/
theorem run : θ_run defs (onTc (τ := τ) (main (F := Ideal))) ⟨m, fun _ => 0, ρ⟩ fun r => ∀ c : Dev nD,
      r.2.mem ((c.tc : Thread nD τ).loc main_v38) = (fun _ => lossK (tg m c) (xm m c) (zm m c) (lv m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v38 (Pipeline.mem_restRefs_of main_v38 (by decide) (by decide))).trans (result_eq m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      (((h c).2 main_arg2 (Pipeline.mem_restRefs_of main_arg2 (by decide) (by decide))).trans (W_main_arg2 m (dats m) c)),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c)))⟩)
    (run_main m ρ)

end Cert.Tcvae.KernelValue

end
-- ==== Proof.RefValue.lean ====
/-
  The reference program's value is the Spec's loss.

  Each stage of the reference is read at an index from its operands at an index, and the stages are joined where the
  mathematics cuts:
    the pixel term        stage 12 at (i, p) is bern (target i p) (mean i p); its row sum is pxRow, the mean of the rows px;
    the prior term        stage 25 at (i, d) is gauss (z_mean i d) (z_log_var i d); its row sum is pz;
    the pair term         stage 41 at (i, j, d) is gauss (z_mean i d) (z_log_var j d) = pair i j d;
    the maxima along j    a maximum reduction over one axis from the word of −∞ is the fold of max from ⊥ over that
                          axis's coordinates: stage 42 at (i, d) is m1 i d, stage 56 at i is m2 i (of rowS, stage 55);
    the exp-sums          a sum over every index of a rank-3 (rank-2) array is the triple (double) sum over its
                          coordinates: stage 47 is tot1, stage 61 is tot2;
    the reshapes          [1024, 1, 64] → [1024, 64] and [1024, 1] → [1024] keep the coordinates
                          ((64·i + d) / 64 = i, (64·i + d) % 64 = d); stage 54 is qzProd, stage 67 is qz;
    the last lines        stage 76 at i is the summand of combine, stage 79 its negated mean.
  An initial value of a sum is the word of zero, which is 0. Float words that appear on both sides are never evaluated.
-/
import proofs.«119960_j71159018160768_2_alg».proof.Proof.Gen.ReferenceIdeal.Read
import proofs.«119960_j71159018160768_2_alg».proof.Proof.Spec
import Idealize.ShloMosaic.Lib.ValueIdx
import Idealize.ShloMosaic.PureOps.Ideal.Laws

noncomputable section

namespace Cert.Tcvae.Ref

open Cert.ReferenceIdeal Cert.ReferenceIdeal.Gen Cert.ReferenceIdeal.Read Idealize.ShloMosaic Idealize.ShloMosaic.ValueIdx

/-- The two argument array types of the reference, at the ideal values. -/
abbrev Pix : Type := (⟨S1024x12288, .f32⟩ : BufTy).Contents (Elt Ideal)
abbrev Lat : Type := (⟨S1024x64, .f32⟩ : BufTy).Contents (Elt Ideal)

/-! ## The pair term -/

theorem idx_lv (i j : Fin 1024) (d : Fin 64) :
    idx_main_v28 (idx_main_v36 (ix3 i j d)) = ix2 j d :=
  funext fun a => Fin.ext (by match a with | ⟨0, _⟩ => rfl | ⟨1, _⟩ => rfl)

theorem idx_lv' (i j : Fin 1024) (d : Fin 64) :
    idx_main_v28 (idx_main_v34 (ix3 i j d)) = ix2 j d :=
  funext fun a => Fin.ext (by match a with | ⟨0, _⟩ => rfl | ⟨1, _⟩ => rfl)

theorem idx_zm (i j : Fin 1024) (d : Fin 64) :
    idx_main_v27 (idx_main_v33 (ix3 i j d)) = ix2 i d :=
  funext fun a => Fin.ext (by match a with | ⟨0, _⟩ => rfl | ⟨1, _⟩ => rfl)

theorem v41_pair (x3 x4 : Lat) (i j : Fin 1024) (d : Fin 64) :
    val_main_v41 (F := Ideal) x3 x4 (ix3 i j d) = pair x3 x4 i j d := by
  rw [val_main_v41_apply, val_main_v40_apply, val_main_cst_12_apply, val_main_v39_apply, val_main_v37_apply,
    val_main_v38_apply, val_main_cst_11_apply, val_main_v36_apply, val_main_v28_apply, val_main_v35_apply,
    val_main_v33_apply, val_main_v29_apply, val_main_v27_apply, val_main_v34_apply, val_main_v32_apply,
    val_main_v30_apply, val_main_v28_apply, val_main_v31_apply, val_main_cst_10_apply]
  simp only [idx_lv, idx_lv', idx_zm, Ideal.ofBits_def, Ideal.mulf_def, Ideal.addf_def, Ideal.hostDivf_def,
    Ideal.hostUnary_exp_def]
  rfl

/-! ## Sums over index sets of rank one and three, by coordinates -/

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The pixel term -/

theorem v12_bern (x0 x1 : Pix) (i : Fin 1024) (p : Fin 12288) :
    val_main_v12 (F := Ideal) x0 x1 (ix2 i p) = bern (x0 (ix2 i p)) (x1 (ix2 i p)) := by
  rw [val_main_v12_apply, val_main_v3_apply, val_main_v2_apply, val_main_v1_apply, val_main_v0_apply,
    val_main_cst_apply, val_main_v11_apply, val_main_v5_apply, val_main_v4_apply, val_main_cst_0_apply,
    val_main_v10_apply, val_main_v9_apply, val_main_v7_apply, val_main_v6_apply, val_main_cst_1_apply,
    val_main_v8_apply, val_main_cst_2_apply]
  simp only [Ideal.ofBits_def, Ideal.mulf_def, Ideal.addf_def, Ideal.subf_def, Ideal.hostUnary_log_def]
  rfl

theorem idx_v13 (i : Fin 1024) (p : Fin 12288) : idx_main_v13 (ix1 i) p = ix2 i p :=
  funext fun a => Fin.ext (by match a with | ⟨0, _⟩ => rfl | ⟨1, _⟩ => rfl)

theorem v13_pxRow (x0 x1 : Pix) (i : Fin 1024) :
    val_main_v13 (F := Ideal) x0 x1 (ix1 i) = pxRow x0 x1 i := by
  rw [val_main_v13_apply, val_main_cst_3_apply, Ideal.ofBits_def, Ideal.ofBits_zero_f32, zero_add]
  unfold pxRow
  refine Finset.sum_congr rfl fun p _ => ?_
  rw [idx_v13, v12_bern]

theorem v15_px (x0 x1 : Pix) (i : S_.Idx) :
    val_main_v15 (F := Ideal) x0 x1 i = px x0 x1 := by
  rw [val_main_v15_apply, val_main_v14_apply, val_main_cst_4_apply, val_main_cst_5_apply, Ideal.ofBits_def,
    Ideal.ofBits_zero_f32, zero_add, Ideal.hostDivf_def, Ideal.ofBits_def, sum_idx1]
  unfold px n1024
  refine congrArg (fun s => Ideal.div s _) (Finset.sum_congr rfl fun a _ => ?_)
  exact v13_pxRow x0 x1 a

/-! ## The prior term -/

theorem v25_gauss (x3 x4 : Lat) (i : Fin 1024) (d : Fin 64) :
    val_main_v25 (F := Ideal) x3 x4 (ix2 i d) = gauss (x3 (ix2 i d)) (x4 (ix2 i d)) := by
  rw [val_main_v25_apply, val_main_v24_apply, val_main_cst_8_apply, val_main_v23_apply, val_main_v21_apply,
    val_main_v20_apply, val_main_v16_apply, val_main_v19_apply, val_main_v17_apply, val_main_v18_apply,
    val_main_cst_6_apply, val_main_v22_apply, val_main_cst_7_apply]
  simp only [Ideal.ofBits_def, Ideal.mulf_def, Ideal.addf_def, Ideal.hostDivf_def, Ideal.hostUnary_exp_def]
  rfl

theorem idx_v26 (i : Fin 1024) (d : Fin 64) : idx_main_v26 (ix1 i) d = ix2 i d :=
  funext fun a => Fin.ext (by match a with | ⟨0, _⟩ => rfl | ⟨1, _⟩ => rfl)

theorem v26_pz (x3 x4 : Lat) (i : Fin 1024) :
    val_main_v26 (F := Ideal) x3 x4 (ix1 i) = pz x3 x4 i := by
  rw [val_main_v26_apply, val_main_cst_9_apply, Ideal.ofBits_def, Ideal.ofBits_zero_f32, zero_add]
  unfold pz
  refine Finset.sum_congr rfl fun d _ => ?_
  rw [idx_v26, v25_gauss]

/-! ## The two maxima along j -/

/-- The word of minus infinity is the bottom element. -/
theorem negInf_bot : Ideal.ofBits .f32 0xFF800000#32 = (⊥ : EReal) := by simp [Ideal.ofBits, Ideal.ieee]

/-- (i, d) with column j put back on the middle axis is (i, j, d). -/
theorem lift_v42 (h : S1024x1024x64.Reduces [1] S1024x64) (i : Fin 1024) (d : Fin 64)
    (k : Fin (S1024x1024x64.size 1)) : h.lift (ix2 i d) k = ix3 i (⟨k.val, k.isLt⟩ : Fin 1024) d := by
  funext c; apply Fin.ext
  fin_cases c <;> rfl

theorem v42_m1 (x3 x4 : Lat) (i : Fin 1024) (d : Fin 64) :
    val_main_v42 (F := Ideal) x3 x4 (ix2 i d) = m1 x3 x4 i d := by
  have h : S1024x1024x64.Reduces [1] S1024x64 := by decide
  unfold val_main_v42
  rw [Host.reduce_eq_fold_single FloatOps.maximumf _ _ reducesTo_S1024x1024x64_S1024x64_d1 h h_S_,
    val_main_cst_13_apply, Ideal.ofBits_def, negInf_bot]
  unfold m1
  have hf : (val_main_v41 (F := Ideal) x3 x4 ∘ h.lift (ix2 i d)) = fun j : Fin 1024 => pair x3 x4 i j d :=
    funext fun k => by
      show val_main_v41 (F := Ideal) x3 x4 (h.lift (ix2 i d) k) = _
      rw [lift_v42, v41_pair]
      rfl
  exact congrArg (fun f => Finset.fold max ⊥ f (Finset.univ : Finset (Fin 1024))) hf

/-! ## The row sums over d and their maximum -/

theorem idx_v55 (i j : Fin 1024) (d : Fin 64) : idx_main_v55 (ix2 i j) d = ix3 i j d :=
  funext fun a => Fin.ext (by match a with | ⟨0, _⟩ => rfl | ⟨1, _⟩ => rfl | ⟨2, _⟩ => rfl)

theorem v55_rowS (x3 x4 : Lat) (i j : Fin 1024) :
    val_main_v55 (F := Ideal) x3 x4 (ix2 i j) = rowS x3 x4 i j := by
  rw [val_main_v55_apply, val_main_cst_17_apply, Ideal.ofBits_def, Ideal.ofBits_zero_f32, zero_add]
  unfold rowS
  refine Finset.sum_congr rfl fun d _ => ?_
  rw [idx_v55, v41_pair]

theorem lift_v56 (h : S1024x1024.Reduces [1] S1024) (i : Fin 1024) (k : Fin (S1024x1024.size 1)) :
    h.lift (ix1 i) k = ix2 i (⟨k.val, k.isLt⟩ : Fin 1024) := by
  funext c; apply Fin.ext
  fin_cases c <;> rfl

theorem v56_m2 (x3 x4 : Lat) (i : Fin 1024) :
    val_main_v56 (F := Ideal) x3 x4 (ix1 i) = m2 x3 x4 i := by
  have h : S1024x1024.Reduces [1] S1024 := by decide
  unfold val_main_v56
  rw [Host.reduce_eq_fold_single FloatOps.maximumf _ _ reducesTo_S1024x1024_S1024_d1 h h_S_,
    val_main_cst_18_apply, Ideal.ofBits_def, negInf_bot]
  unfold m2
  have hf : (val_main_v55 (F := Ideal) x3 x4 ∘ h.lift (ix1 i)) = fun j : Fin 1024 => rowS x3 x4 i j :=
    funext fun k => by
      show val_main_v55 (F := Ideal) x3 x4 (h.lift (ix1 i) k) = _
      rw [lift_v56, v55_rowS]
      rfl
  exact congrArg (fun f => Finset.fold max ⊥ f (Finset.univ : Finset (Fin 1024))) hf

/-! ## The exp-sum over all of (i, j, d), and the product-of-marginals term -/

theorem idx_v44 (i j : Fin 1024) (d : Fin 64) : idx_main_v43 (idx_main_v44 (ix3 i j d)) = ix2 i d :=
  funext fun a => Fin.ext (by match a with | ⟨0, _⟩ => rfl | ⟨1, _⟩ => rfl)

theorem v46_exp (x3 x4 : Lat) (i j : Fin 1024) (d : Fin 64) :
    val_main_v46 (F := Ideal) x3 x4 (ix3 i j d) = Ideal.exp (pair x3 x4 i j d - m1 x3 x4 i d) := by
  rw [val_main_v46_apply, val_main_v45_apply, val_main_v44_apply, val_main_v43_apply, idx_v44, v41_pair, v42_m1,
    Ideal.subf_def, Ideal.hostUnary_exp_def]

theorem v47_tot1 (x3 x4 : Lat) (i : S_.Idx) :
    val_main_v47 (F := Ideal) x3 x4 i = tot1 x3 x4 := by
  rw [val_main_v47_apply, val_main_cst_14_apply, Ideal.ofBits_def, Ideal.ofBits_zero_f32, zero_add, sum_idx3]
  unfold tot1
  refine Finset.sum_congr rfl fun a _ => Finset.sum_congr rfl fun b _ => Finset.sum_congr rfl fun c _ => ?_
  exact v46_exp x3 x4 a b c

/-- The reshape [1024, 1, 64] → [1024, 64] keeps (i, d). -/
theorem idx_v51 (i : Fin 1024) (d : Fin 64) : idx_main_v43 (idx_main_v51 (ix2 i d)) = ix2 i d :=
  funext fun a => Fin.ext (by
    have hi : i.val < 1024 := i.isLt
    have hd : d.val < 64 := d.isLt
    match a with
    | ⟨0, _⟩ => show (i.val * 64 + d.val) / 64 = i.val; omega
    | ⟨1, _⟩ => show (i.val * 64 + d.val) % 64 = d.val; omega)

theorem v53_term (x3 x4 : Lat) (i : Fin 1024) (d : Fin 64) :
    val_main_v53 (F := Ideal) x3 x4 (ix2 i d) = (Ideal.log (tot1 x3 x4) + m1 x3 x4 i d) - logNM := by
  rw [val_main_v53_apply, val_main_v51_apply, val_main_v50_apply, val_main_v49_apply, val_main_v48_apply,
    val_main_v43_apply, idx_v51, v47_tot1, v42_m1, val_main_v52_apply, val_main_cst_15_apply, Ideal.ofBits_def,
    Ideal.subf_def, Ideal.addf_def, Ideal.hostUnary_log_def]
  rfl

theorem idx_v54 (i : Fin 1024) (d : Fin 64) : idx_main_v54 (ix1 i) d = ix2 i d :=
  funext fun a => Fin.ext (by match a with | ⟨0, _⟩ => rfl | ⟨1, _⟩ => rfl)

theorem v54_qzProd (x3 x4 : Lat) (i : Fin 1024) :
    val_main_v54 (F := Ideal) x3 x4 (ix1 i) = qzProd x3 x4 i := by
  rw [val_main_v54_apply, val_main_cst_16_apply, Ideal.ofBits_def, Ideal.ofBits_zero_f32, zero_add]
  unfold qzProd
  refine Finset.sum_congr rfl fun d _ => ?_
  rw [idx_v54, v53_term]

/-! ## The exp-sum over all of (i, j), and the joint term -/

theorem idx_v58 (i j : Fin 1024) : idx_main_v57 (idx_main_v58 (ix2 i j)) = ix1 i :=
  funext fun a => Fin.ext (by match a with | ⟨0, _⟩ => rfl)

theorem v60_exp (x3 x4 : Lat) (i j : Fin 1024) :
    val_main_v60 (F := Ideal) x3 x4 (ix2 i j) = Ideal.exp (rowS x3 x4 i j - m2 x3 x4 i) := by
  rw [val_main_v60_apply, val_main_v59_apply, val_main_v58_apply, val_main_v57_apply, idx_v58, v55_rowS, v56_m2,
    Ideal.subf_def, Ideal.hostUnary_exp_def]

theorem v61_tot2 (x3 x4 : Lat) (i : S_.Idx) :
    val_main_v61 (F := Ideal) x3 x4 i = tot2 x3 x4 := by
  rw [val_main_v61_apply, val_main_cst_19_apply, Ideal.ofBits_def, Ideal.ofBits_zero_f32, zero_add, sum_idx2]
  unfold tot2
  refine Finset.sum_congr rfl fun a _ => Finset.sum_congr rfl fun b _ => ?_
  exact v60_exp x3 x4 a b

/-- The reshape [1024, 1] → [1024] keeps i. -/
theorem idx_v65 (i : Fin 1024) : idx_main_v57 (idx_main_v65 (ix1 i)) = ix1 i :=
  funext fun a => Fin.ext (by
    match a with
    | ⟨0, _⟩ => show i.val / 1 = i.val; omega)

theorem v67_qz (x3 x4 : Lat) (i : Fin 1024) :
    val_main_v67 (F := Ideal) x3 x4 (ix1 i) = qz x3 x4 i := by
  rw [val_main_v67_apply, val_main_v65_apply, val_main_v64_apply, val_main_v63_apply, val_main_v62_apply,
    val_main_v57_apply, idx_v65, v61_tot2, v56_m2, val_main_v66_apply, val_main_cst_20_apply, Ideal.ofBits_def,
    Ideal.subf_def, Ideal.addf_def, Ideal.hostUnary_log_def]
  rfl

/-! ## The last lines -/

theorem v76_term (x0 x1 : Pix) (x3 x4 : Lat) (i : Fin 1024) :
    val_main_v76 (F := Ideal) x0 x1 x3 x4 (ix1 i)
      = (((px x0 x1 - (pz x3 x4 i - qz x3 x4 i)) - beta * (qz x3 x4 i - qzProd x3 x4 i))
          - (qzProd x3 x4 i - pz x3 x4 i)) := by
  rw [val_main_v76_apply, val_main_v75_apply, val_main_v72_apply, val_main_v71_apply, v15_px, val_main_v68_apply,
    val_main_v74_apply, val_main_v73_apply, val_main_cst_21_apply, val_main_v69_apply, val_main_v70_apply,
    v26_pz, v67_qz, v54_qzProd, Ideal.ofBits_def]
  simp only [Ideal.subf_def, Ideal.mulf_def]
  rfl

theorem ref_value (x0 x1 : (⟨Cert.ReferenceIdeal.S1024x12288, .f32⟩ : BufTy).Contents (Elt Ideal))
    (x3 x4 : (⟨Cert.ReferenceIdeal.S1024x64, .f32⟩ : BufTy).Contents (Elt Ideal)) :
    Cert.ReferenceIdeal.Read.val_main_v79 (F := Ideal) x0 x1 x3 x4 = fun _ => Cert.Tcvae.loss x0 x1 x3 x4 := by
  funext i
  rw [val_main_v79_apply, val_main_v78_apply, val_main_v77_apply, val_main_cst_22_apply, val_main_cst_23_apply,
    Ideal.ofBits_def, Ideal.ofBits_zero_f32, zero_add, Ideal.ofBits_def, Ideal.hostDivf_def, Ideal.hostNegf_def,
    Ideal.negf_def, sum_idx1]
  unfold loss combine n1024
  refine congrArg (fun s => -(Ideal.div s _)) (Finset.sum_congr rfl fun a _ => ?_)
  exact v76_term x0 x1 x3 x4 a

end Cert.Tcvae.Ref

end
-- ==== Proof.LibERealSum.lean ====
/-
  The coercion of the reals into the extended reals commutes with finite sums.
-/
import Mathlib.Data.EReal.Basic
import Mathlib.Algebra.BigOperators.Group.Finset.Basic

open scoped BigOperators

namespace Cert.ERealSum

/-- A finite sum of reals, coerced, is the sum of the coerced terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.ERealSum
-- ==== Proof.LibBlockedSum.lean ====
/-
  A reusable lemma: a sum over the rows of an array taken block by block is the sum over all the rows.

  When n = a·b rows are cut into a consecutive blocks of b rows, row r of block t being row b·t + r, summing a
  function of the row first inside each block and then over the blocks is summing it over all n rows.  Stated in any
  commutative additive monoid, with the block count allowed to be a number N only known to equal a.
-/
import Mathlib.Algebra.BigOperators.Fin
import Mathlib.Logic.Equiv.Fin.Basic

namespace Cert.BlockedSum

variable {M : Type} [AddCommMonoid M]

theorem sum_blocks {N a b n : ℕ} (hN : N = a) (hn : a * b = n) (F : Fin n → M) (row : Fin N → Fin b → Fin n)
    (hrow : ∀ t r, (row t r).val = b * t.val + r.val) :
    ∑ t : Fin N, ∑ r : Fin b, F (row t r) = ∑ k : Fin n, F k := by
  subst hN
  subst hn
  rw [← Fintype.sum_prod_type']
  refine Fintype.sum_equiv finProdFinEquiv _ _ fun x => congrArg F (Fin.ext ?_)
  rw [hrow, finProdFinEquiv_apply_val]
  omega

end Cert.BlockedSum
-- ==== Proof.LossLaws.lean ====
/-
  The kernel's arrangement of the Beta-TCVAE loss equals the reference's, for latent arrays with real entries.

  Both losses are the same last lines applied to four pieces, and the prior term is literally shared, so three
  equalities are shown.

  • The pixel term. The kernel adds eight stripe sums of 1536 pixels from zero; the extended reals are a commutative
    additive monoid, so the eight stripes add up to the whole row of 12288 pixels whatever the pixels are.

  • The Gaussian log-density. At real arguments −½·((l + z²/(eˡ + ε)) + c) and (−½·l − c') − (½·z²)·(1/(eˡ + ε)) are
    one real number: eˡ + ε is a positive real, so the quotient is a product with a real reciprocal, the word c is
    twice the word c' (same mantissa, next exponent), and the rest is the distributive law — which holds among reals
    and fails at the infinities; this is where finiteness of the latent entries is used.

  • The maxima and the exp-sums. Over a family of 1024 reals cut into eight blocks of 128, the running pair
    (m, t) ↦ (m' = max m (block max), t·exp(m − m') + Σ_block exp(x − m')) started from (−∞, 0) keeps the invariant
    "m is the maximum of the entries read so far and t = Σ over them of exp(x − m)", because
    (Σ exp(x − m))·exp(m − m') = Σ exp(x − m'). After eight blocks m is the maximum of the whole family — the fold of
    max from the bottom, by its universal property — and t the exp-sum over the whole family. Summed over the outer
    axes (exchanging the sums over j and d for the first total) these are the reference's totals.

  • The product-of-marginals term. The first total is a positive real, so its logarithm is a real A; with B the word of
    log NM and m_d the 64 real maxima, 64·(A − B) + Σ_d m_d = Σ_d ((A + m_d) − B).
-/
import proofs.«119960_j71159018160768_2_alg».proof.Proof.Spec
import proofs.«119960_j71159018160768_2_alg».proof.Proof.LibERealSum
import proofs.«119960_j71159018160768_2_alg».proof.Proof.LibBlockedSum

noncomputable section

namespace Cert.Tcvae

open Idealize.ShloMosaic Idealize.ShloMosaic.ValueIdx

/-! ## The float words as real numbers -/

theorem zero_eq : zero = 0 := by
  simp [zero, Ideal.ofBits, Ideal.ieee]

theorem negInf_eq : negInf = ⊥ := by
  simp [negInf, Ideal.ofBits, Ideal.ieee]

theorem one_eq : one = ((1 : ℝ) : EReal) := by
  simp [one, Ideal.ofBits, Ideal.ieee, -EReal.coe_mul]; norm_num

theorem negHalf_eq : negHalf = ((-(1/2) : ℝ) : EReal) := by
  simp [negHalf, Ideal.ofBits, Ideal.ieee, -EReal.coe_mul]; norm_num

theorem half_eq : half = (((1/2) : ℝ) : EReal) := by
  simp [half, Ideal.ofBits, Ideal.ieee, -EReal.coe_mul]; norm_num

theorem d64_eq : d64 = ((64 : ℝ) : EReal) := by
  simp [d64, Ideal.ofBits, Ideal.ieee, -EReal.coe_mul]; norm_num

/-- The real number the word of ε denotes: a normal float, mantissa 0x56BF95, biased exponent 103. -/
def tolR : ℝ := (2 ^ 23 + 0x56BF95 : ℕ) * (2 : ℝ) ^ ((103 : ℤ) - 127 - 23)

theorem tolR_pos : 0 < tolR := by unfold tolR; positivity

theorem tol_eq : tol = (tolR : EReal) := by
  simp [tol, tolR, Ideal.ofBits, Ideal.ieee, -EReal.coe_mul]

/-- The real number the word of ½·log 2π denotes: mantissa 0x6B3F8E, biased exponent 126. -/
def cR : ℝ := (2 ^ 23 + 0x6B3F8E : ℕ) * (2 : ℝ) ^ ((126 : ℤ) - 127 - 23)

theorem cHalf_eq : cHalf = (cR : EReal) := by
  simp [cHalf, cR, Ideal.ofBits, Ideal.ieee, -EReal.coe_mul]

/-- The word of log 2π has the same mantissa and the next exponent: twice the other. -/
theorem cFull_eq : cFull = ((2 * cR : ℝ) : EReal) := by
  simp [cFull, cR, Ideal.ofBits, Ideal.ieee, -EReal.coe_mul]
  norm_num

/-- The real number the word of log(1024 · 737280) denotes. -/
def logNMR : ℝ := (2 ^ 23 + 0x23899D : ℕ) * (2 : ℝ) ^ ((131 : ℤ) - 127 - 23)

theorem logNM_eq : logNM = (logNMR : EReal) := by
  simp [logNM, logNMR, Ideal.ofBits, Ideal.ieee, -EReal.coe_mul]

/-! ## The Gaussian term at real arguments -/

/-- The Gaussian log-density at real arguments, as a real number. -/
def gaussR (z l : ℝ) : ℝ := -(1/2) * ((l + (z * z) * (1 / (Real.exp l + tolR))) + 2 * cR)

theorem exp_add_tol_ne (l : ℝ) : Real.exp l + tolR ≠ 0 :=
  ne_of_gt (add_pos (Real.exp_pos l) tolR_pos)

/-- The reference's spelling at real arguments is that real number. -/
theorem gauss_coe (z l : ℝ) : gauss (z : EReal) (l : EReal) = (gaussR z l : EReal) := by
  unfold gauss gaussR
  rw [negHalf_eq, cFull_eq, tol_eq, Ideal.exp_coe, ← EReal.coe_add, Ideal.div_coe (exp_add_tol_ne l)]
  simp only [← EReal.coe_mul, ← EReal.coe_add]

/-- The kernel's spelling at real arguments is the same real number: the halved bracket multiplied out. -/
theorem gaussK_coe (z l : ℝ) : gaussK (z : EReal) (l : EReal) = (gaussR z l : EReal) := by
  unfold gaussK gaussR
  rw [negHalf_eq, half_eq, one_eq, cHalf_eq, tol_eq, Ideal.exp_coe, ← EReal.coe_add,
    Ideal.div_coe (exp_add_tol_ne l)]
  simp only [← EReal.coe_mul, ← EReal.coe_sub]
  rw [EReal.coe_eq_coe_iff]
  ring

/-! ## The striped row sum -/

/-- The running sum after stripe n is the sum of the first n + 1 stripe sums. -/
theorem runAdd_range (f : ℕ → EReal) (n : ℕ) : runAdd f n = ∑ t ∈ Finset.range (n + 1), f t := by
  induction n with
  | zero => simp [runAdd, zero_eq]
  | succ k ih => rw [runAdd, ih]; exact (Finset.sum_range_succ f (k + 1)).symm

/-- Eight stripes of 1536 pixels are all 12288 pixels: no finiteness is needed, the extended reals being a
    commutative additive monoid. -/
theorem runAdd_closed (h : Fin 12288 → EReal) (f : ℕ → EReal)
    (hf : ∀ k, k < 8 → f k = ∑ q : Fin 1536, h (pixAt k q)) :
    runAdd f 7 = ∑ p : Fin 12288, h p := by
  rw [runAdd_range, Finset.sum_range (n := 8) f,
    ← Cert.BlockedSum.sum_blocks (N := 8) (a := 8) (b := 1536) rfl (by norm_num) h
      (fun t q => pixAt t.val q)]
  · exact Finset.sum_congr rfl fun t _ => hf t.val t.isLt
  · intro t r
    have ht := t.isLt
    have hr := r.isLt
    simp only [pixAt]
    omega

/-! ## The running maximum and the rescaled running exp-sum -/

/-- The coercion of the reals into the extended reals commutes with the maximum of two. -/
theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-- The fold of max from the bottom over a non-empty finite family of reals is attained. -/
theorem foldMax_real {ι : Type} [Fintype ι] [Nonempty ι] (b : ι → ℝ) :
    ∃ mb : ℝ, (Finset.univ : Finset ι).fold max ⊥ (fun l => (b l : EReal)) = (mb : EReal) ∧
      (∀ l, b l ≤ mb) ∧ ∃ l, b l = mb := by
  obtain ⟨l0, -, h0⟩ := Finset.exists_max_image (Finset.univ : Finset ι) b Finset.univ_nonempty
  refine ⟨b l0, le_antisymm ?_ ?_, fun l => h0 l (Finset.mem_univ l), l0, rfl⟩
  · exact (Finset.fold_max_le _).mpr ⟨bot_le, fun l _ => EReal.coe_le_coe_iff.mpr (h0 l (Finset.mem_univ l))⟩
  · exact (Finset.le_fold_max _).mpr (Or.inr ⟨l0, Finset.mem_univ l0, le_rfl⟩)

/-- A fold of max from the bottom that is bounded by an attained real value is that value. -/
theorem foldMax_eq_of {ι : Type} [Fintype ι] (h : ι → ℝ) (m : ℝ) (hle : ∀ j, h j ≤ m) (hat : ∃ j, h j = m) :
    (Finset.univ : Finset ι).fold max ⊥ (fun j => (h j : EReal)) = (m : EReal) := by
  obtain ⟨j0, hj0⟩ := hat
  refine le_antisymm ?_ ?_
  · exact (Finset.fold_max_le _).mpr ⟨bot_le, fun j _ => EReal.coe_le_coe_iff.mpr (hle j)⟩
  · exact (Finset.le_fold_max _).mpr (Or.inr ⟨j0, Finset.mem_univ j0, by rw [hj0]⟩)

/-- The running pair depends only on the blocks read so far. -/
theorem runMS_congr (f f' : ℕ → Fin 128 → EReal) (n : ℕ) (h : ∀ k, k ≤ n → f k = f' k) :
    runMS f n = runMS f' n := by
  induction n with
  | zero => simp only [runMS]; rw [h 0 le_rfl]
  | succ k ih =>
    simp only [runMS]
    rw [ih fun k' hk' => h k' (Nat.le_succ_of_le hk'), h (k + 1) le_rfl]

/-- The invariant of the running pair over blocks of reals: after block n the first component is the real maximum
    of the entries of blocks 0 … n, and the second the sum over those entries of exp (entry − that maximum). The
    step rescales the old sum: (Σ exp (x − m)) · exp (m − m') = Σ exp (x − m'). -/
theorem runMS_inv (blk : ℕ → Fin 128 → ℝ) (n : ℕ) :
    ∃ m : ℝ, (runMS (fun k l => (blk k l : EReal)) n).1 = (m : EReal) ∧
      (∀ k, k ≤ n → ∀ l, blk k l ≤ m) ∧ (∃ k, k ≤ n ∧ ∃ l, blk k l = m) ∧
      (runMS (fun k l => (blk k l : EReal)) n).2 =
        ((∑ k ∈ Finset.range (n + 1), ∑ l : Fin 128, Real.exp (blk k l - m) : ℝ) : EReal) := by
  induction n with
  | zero =>
    obtain ⟨mb, hfold, hle, l0, hl0⟩ := foldMax_real (blk 0)
    refine ⟨mb, ?_, ?_, ⟨0, le_rfl, l0, hl0⟩, ?_⟩
    · simp only [runMS, stepMax, negInf_eq]
      rw [hfold, max_eq_right bot_le]
    · intro k hk l
      obtain rfl : k = 0 := Nat.le_zero.mp hk
      exact hle l
    · simp only [runMS, stepSum, stepMax, negInf_eq, zero_eq]
      rw [hfold, max_eq_right bot_le, zero_mul, zero_add, Finset.sum_range_one, Cert.ERealSum.coe_sum]
      refine Finset.sum_congr rfl fun l _ => ?_
      rw [← EReal.coe_sub, Ideal.exp_coe]
  | succ n ih =>
    obtain ⟨m, h1, hle, hat, h2⟩ := ih
    obtain ⟨mb, hfold, hble, l0, hl0⟩ := foldMax_real (blk (n + 1))
    have hmax : stepMax (m : EReal) (fun l => (blk (n + 1) l : EReal)) = ((max m mb : ℝ) : EReal) := by
      simp only [stepMax, negInf_eq]
      rw [hfold, coe_max]
    refine ⟨max m mb, ?_, ?_, ?_, ?_⟩
    · simp only [runMS]
      rw [h1, hmax]
    · intro k hk l
      rcases Nat.lt_or_ge k (n + 1) with hlt | hge
      · exact le_trans (hle k (Nat.lt_succ_iff.mp hlt) l) (le_max_left _ _)
      · obtain rfl : k = n + 1 := le_antisymm hk hge
        exact le_trans (hble l) (le_max_right _ _)
    · rcases le_total m mb with hmm | hmm
      · rw [max_eq_right hmm]
        exact ⟨n + 1, le_rfl, l0, hl0⟩
      · rw [max_eq_left hmm]
        obtain ⟨k, hk, l, hl⟩ := hat
        exact ⟨k, Nat.le_succ_of_le hk, l, hl⟩
    · simp only [runMS]
      rw [h1, h2]
      simp only [stepSum]
      rw [hmax, ← EReal.coe_sub, Ideal.exp_coe, ← EReal.coe_mul]
      have hb : ∑ l : Fin 128, Ideal.exp ((blk (n + 1) l : EReal) - ((max m mb : ℝ) : EReal)) =
          ((∑ l : Fin 128, Real.exp (blk (n + 1) l - max m mb) : ℝ) : EReal) := by
        rw [Cert.ERealSum.coe_sum]
        refine Finset.sum_congr rfl fun l _ => ?_
        rw [← EReal.coe_sub, Ideal.exp_coe]
      rw [hb, ← EReal.coe_add, EReal.coe_eq_coe_iff, Finset.sum_range_succ _ (n + 1)]
      congr 1
      rw [Finset.sum_mul]
      refine Finset.sum_congr rfl fun k _ => ?_
      rw [Finset.sum_mul]
      refine Finset.sum_congr rfl fun l _ => ?_
      rw [← Real.exp_add]
      congr 1
      ring

/-- Column l of block k, for k = 0 … 7, is column 128·k + l. -/
theorem colAt_val (k : ℕ) (hk : k < 8) (l : Fin 128) : (colAt k l).val = 128 * k + l.val := by
  have hl := l.isLt
  simp only [colAt]
  omega

/-- The running pair after all eight blocks of 128 columns of a family of 1024 reals: the first component is the
    real maximum of the family (which is the fold of max from the bottom), the second the sum over the whole family
    of exp (entry − maximum). -/
theorem runMS_closed (g : Fin 1024 → ℝ) (f : ℕ → Fin 128 → EReal)
    (hf : ∀ k, k < 8 → ∀ l, f k l = (g (colAt k l) : EReal)) :
    ∃ m : ℝ, (runMS f 7).1 = (m : EReal) ∧
      (Finset.univ : Finset (Fin 1024)).fold max ⊥ (fun j => (g j : EReal)) = (m : EReal) ∧
      (runMS f 7).2 = ((∑ j : Fin 1024, Real.exp (g j - m) : ℝ) : EReal) := by
  have hc : runMS f 7 = runMS (fun k l => ((g (colAt k l) : ℝ) : EReal)) 7 :=
    runMS_congr _ _ 7 fun k hk => funext fun l => hf k (Nat.lt_succ_of_le hk) l
  obtain ⟨m, h1, hle, ⟨k0, hk0, l0, hl0⟩, h2⟩ := runMS_inv (fun k l => g (colAt k l)) 7
  refine ⟨m, by rw [hc]; exact h1, ?_, ?_⟩
  · refine foldMax_eq_of g m (fun j => ?_) ⟨colAt k0 l0, hl0⟩
    have hj := j.isLt
    have hcol : j = colAt (j.val / 128) ⟨j.val % 128, Nat.mod_lt _ (by norm_num)⟩ := by
      apply Fin.ext
      simp only [colAt]
      omega
    rw [hcol]
    exact hle (j.val / 128) (by omega) _
  · rw [hc, h2, EReal.coe_eq_coe_iff, Finset.sum_range]
    exact Cert.BlockedSum.sum_blocks (N := 7 + 1) (a := 8) (b := 128) rfl (by norm_num)
      (fun j => Real.exp (g j - m)) (fun t l => colAt t.val l) (fun t l => colAt_val t.val t.isLt l)

/-! ## The pieces of the loss -/

/-- The pixel row sum: eight stripes are the whole row (arbitrary extended-real pixels). -/
theorem pxRowK_eq (tg xm : PixArr) (i : Fin 1024) : pxRowK tg xm i = pxRow tg xm i :=
  runAdd_closed (fun p => bern (tg (ix2 i p)) (xm (ix2 i p))) _ fun _ _ => rfl

theorem pxK_eq (tg xm : PixArr) : pxK tg xm = px tg xm := by
  unfold pxK px
  simp only [pxRowK_eq]

section Latent

variable {zm lv : LatArr} {P : Fin 1024 → Fin 1024 → Fin 64 → ℝ}

/-- The first running pair, per sample and latent coordinate, against the reference's maximum along j. -/
theorem ms1_spec (hp : ∀ i j d, pair zm lv i j d = (P i j d : EReal))
    (hk : ∀ i d j, pairK zm lv i d j = (P i j d : EReal)) (i : Fin 1024) (d : Fin 64) :
    ∃ m : ℝ, (ms1K zm lv i d).1 = (m : EReal) ∧ m1 zm lv i d = (m : EReal) ∧
      (ms1K zm lv i d).2 = ((∑ j : Fin 1024, Real.exp (P i j d - m) : ℝ) : EReal) := by
  obtain ⟨m, h1, h2, h3⟩ := runMS_closed (fun j => P i j d) (fun k l => pairK zm lv i d (colAt k l))
    (fun k _ l => hk i d (colAt k l))
  refine ⟨m, h1, ?_, h3⟩
  unfold m1
  simp only [hp]
  exact h2

/-- The row sums over the latent coordinates are real, the same real on both sides. -/
theorem rowS_coe (hp : ∀ i j d, pair zm lv i j d = (P i j d : EReal)) (i j : Fin 1024) :
    rowS zm lv i j = ((∑ d : Fin 64, P i j d : ℝ) : EReal) := by
  unfold rowS
  simp only [hp, ← Cert.ERealSum.coe_sum]

theorem rowSK_coe (hk : ∀ i d j, pairK zm lv i d j = (P i j d : EReal)) (i j : Fin 1024) :
    rowSK zm lv i j = ((∑ d : Fin 64, P i j d : ℝ) : EReal) := by
  unfold rowSK
  simp only [hk, ← Cert.ERealSum.coe_sum]

/-- The second running pair, per sample, against the reference's maximum along j of the row sums. -/
theorem ms2_spec (hp : ∀ i j d, pair zm lv i j d = (P i j d : EReal))
    (hk : ∀ i d j, pairK zm lv i d j = (P i j d : EReal)) (i : Fin 1024) :
    ∃ m : ℝ, (ms2K zm lv i).1 = (m : EReal) ∧ m2 zm lv i = (m : EReal) ∧
      (ms2K zm lv i).2 = ((∑ j : Fin 1024, Real.exp ((∑ d : Fin 64, P i j d) - m) : ℝ) : EReal) := by
  obtain ⟨m, h1, h2, h3⟩ := runMS_closed (fun j => ∑ d : Fin 64, P i j d)
    (fun k l => rowSK zm lv i (colAt k l)) (fun k _ l => rowSK_coe hk i (colAt k l))
  refine ⟨m, h1, ?_, h3⟩
  unfold m2
  simp only [rowS_coe hp]
  exact h2

/-- The joint term: the exp-sum over all axes and the maxima agree, so the term does. -/
theorem qzK_eq (hp : ∀ i j d, pair zm lv i j d = (P i j d : EReal))
    (hk : ∀ i d j, pairK zm lv i d j = (P i j d : EReal)) (i : Fin 1024) : qzK zm lv i = qz zm lv i := by
  choose M2 hM2K hM2 hS2 using ms2_spec hp hk
  have htot : tot2K zm lv = tot2 zm lv := by
    unfold tot2K tot2
    simp only [hS2, hM2, rowS_coe hp, ← EReal.coe_sub, Ideal.exp_coe, ← Cert.ERealSum.coe_sum]
  unfold qzK qz
  rw [htot, hM2K i, hM2 i]

/-- The product-of-marginals term: the exp-sums agree after exchanging the sums over j and d, the total is a positive
    real so its logarithm is real, and over the reals 64·(A − B) + Σ_d m_d = Σ_d ((A + m_d) − B). -/
theorem qzProdK_eq (hp : ∀ i j d, pair zm lv i j d = (P i j d : EReal))
    (hk : ∀ i d j, pairK zm lv i d j = (P i j d : EReal)) (i : Fin 1024) :
    qzProdK zm lv i = qzProd zm lv i := by
  choose M1 hM1K hM1 hS1 using ms1_spec hp hk
  have htot1 : tot1 zm lv =
      ((∑ i : Fin 1024, ∑ j : Fin 1024, ∑ d : Fin 64, Real.exp (P i j d - M1 i d) : ℝ) : EReal) := by
    unfold tot1
    simp only [hp, hM1, ← EReal.coe_sub, Ideal.exp_coe, ← Cert.ERealSum.coe_sum]
  have htot1K : tot1K zm lv = tot1 zm lv := by
    rw [htot1]
    unfold tot1K
    simp only [hS1, ← Cert.ERealSum.coe_sum]
    rw [EReal.coe_eq_coe_iff]
    exact Finset.sum_congr rfl fun i _ => Finset.sum_comm
  have hpos : 0 < ∑ i : Fin 1024, ∑ j : Fin 1024, ∑ d : Fin 64, Real.exp (P i j d - M1 i d) :=
    Finset.sum_pos (fun i _ => Finset.sum_pos (fun j _ => Finset.sum_pos (fun d _ => Real.exp_pos _)
      Finset.univ_nonempty) Finset.univ_nonempty) Finset.univ_nonempty
  unfold qzProdK qzProd
  rw [htot1K, htot1, Ideal.log_coe, if_neg (not_le.mpr hpos), d64_eq, logNM_eq]
  simp only [hM1K, hM1, ← EReal.coe_sub, ← EReal.coe_add, ← EReal.coe_mul, ← Cert.ERealSum.coe_sum]
  rw [EReal.coe_eq_coe_iff]
  simp only [Finset.sum_sub_distrib, Finset.sum_add_distrib, Finset.sum_const, Finset.card_univ,
    Fintype.card_fin, nsmul_eq_mul]
  push_cast
  ring

end Latent

/-! ## The two arrangements of the loss -/

/-- For latent arrays with real entries (the pixel arrays arbitrary), the kernel's arrangement of the loss is the
    reference's. -/
theorem lossK_eq_loss (tg xm : PixArr) (zm lv : LatArr)
    (hzm : ∀ i, ∃ r : ℝ, zm i = (r : EReal)) (hlv : ∀ i, ∃ r : ℝ, lv i = (r : EReal)) :
    lossK tg xm zm lv = loss tg xm zm lv := by
  choose a ha using hzm
  choose b hb using hlv
  have hp : ∀ i j d, pair zm lv i j d = ((gaussR (a (ix2 i d)) (b (ix2 j d)) : ℝ) : EReal) := by
    intro i j d
    unfold pair
    rw [ha, hb, gauss_coe]
  have hk : ∀ i d j, pairK zm lv i d j = ((gaussR (a (ix2 i d)) (b (ix2 j d)) : ℝ) : EReal) := by
    intro i d j
    unfold pairK
    rw [ha, hb, gaussK_coe]
  unfold lossK loss
  rw [pxK_eq, funext (qzProdK_eq hp hk), funext (qzK_eq hp hk)]

end Cert.Tcvae

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«119960_j71159018160768_2_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.FiniteLatents.lean ====
/-
  The two latent arrays of the kernel have only real entries, by the precondition.

  The precondition is the conjunction of five tests, one per argument array: all(|x| < +∞), the entrywise absolute value
  compared by "less than" with the splat of the float pattern of +∞, and the comparisons reduced by "and" over both axes
  from the constant true. The conjunction being true, each test is; and over the extended reals |x| < ⊤ says exactly that
  x is neither infinity, a real number. Only the tests of the fourth and the fifth argument are read.
-/
import proofs.«119960_j71159018160768_2_alg».proof.Defs
import proofs.«119960_j71159018160768_2_alg».proof.Proof.Gen.Pre_finite_inputs
import proofs.«119960_j71159018160768_2_alg».proof.Proof.LibFiniteInputs

noncomputable section

namespace Cert.Tcvae.Finite

open Idealize.ShloMosaic Idealize.SL.Sem

/-- The shape with no axes has one index. -/
instance subsingleton_scalarIdx : Subsingleton Cert.Pre_finite_inputs.S_.Idx :=
  ⟨fun a b => funext fun d => d.elim0⟩

/-- The precondition is five tests all(|x| < +∞), one per argument, joined by "and": when it is true, the fourth and
    the fifth argument have only real entries. -/
theorem latents_real_core [hP : Cert.Pre_finite_inputs.Facts]
    (a0 a1 a2 : FVec Ideal Cert.Pre_finite_inputs.S1024x12288 .f32) (a3 a4 : FVec Ideal Cert.Pre_finite_inputs.S1024x64 .f32)
    (h : Cert.Pre_finite_inputs.fn (F := Ideal) a0 a1 a2 a3 a4 = fun _ => 1#1) :
    Cert.RealEntries.AllReal a3 ∧ Cert.RealEntries.AllReal a4 := by
  have h0 := congrFun h ValueIdx.ix0
  dsimp only [Cert.Pre_finite_inputs.fn, Cert.Pre_finite_inputs.fn_part1] at h0
  obtain ⟨h18, h22⟩ := IntOp.andi_eq_one.1 h0
  obtain ⟨h13, h17⟩ := IntOp.andi_eq_one.1 h18
  exact ⟨Cert.RealEntries.allReal_of_all_finite a3 _ _ _ _ _ h17,
    Cert.RealEntries.allReal_of_all_finite a4 _ _ _ _ _ h22⟩

/-- The kernel's fourth and fifth argument arrays, on every device, have only real entries. -/
theorem latents_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal)) :=
  latents_real_core _ _ _ _ _ (h c)

end Cert.Tcvae.Finite

end
-- ==== Proof.lean ====
/-
  The certificate of the fused Beta-TCVAE loss kernel against its jnp reference.

  Both programs compute the scalar  −mean_i( log p(x) − (log q(z|x)_i − log q(z)_i) − β·(log q(z)_i − log Π q(z_d)_i)
  − (log Π q(z_d)_i − log p(z)_i) ),  with log q(z) and log Π q(z_d) logsumexp's of the pairwise Gaussian
  log-densities gauss(mean_i, logvar_j) whose maximum is taken along j and whose exp-sum runs over all axes.
  The reference computes the [1024,1024,64] pairwise tensor and reduces it in two passes. The kernel visits it in
  8 × 8 blocks of 128 × 128 pairs, keeping per row a running maximum and an exp-sum rescaled to it (and the pixel row
  sums over eight stripes), and leaves the last steps to host lines after the region.

  The proof: the reference's result is the loss in the reference's arrangement (RefValue, over the reference's run
  read one operation at a time); the kernel's result is the loss in the kernel's arrangement (BlockTerms: the body's
  arithmetic on one point's blocks; Pieces, Carried, Accum: the accumulators after every point in closed form, by
  induction on the point; Arrays: the output arrays from their blocks; KernelTail: the host lines; KernelValue); and
  for latent arrays with real entries the two arrangements agree (LossLaws: the Gaussian term by distributivity with
  the two words of log 2π a factor two apart, the running maximum / rescaled sum by induction over the blocks,
  Σ_d((A + m_d) − B) = 64·(A − B) + Σ_d m_d) — which the precondition gives (FiniteLatents). The pixel arrays need no
  finiteness: the Bernoulli terms are the same extended reals on both sides and only regrouped.
  The three frames: the two kernel programs' from the frame run (Frame…Run), the reference's from its run.
  The idealization rewrote nothing, so `preserves` is trivial.
-/
import proofs.«119960_j71159018160768_2_alg».proof.Defs
import proofs.«119960_j71159018160768_2_alg».proof.Proof.Gen.Kernel
import proofs.«119960_j71159018160768_2_alg».proof.Proof.Gen.KernelIdeal
import proofs.«119960_j71159018160768_2_alg».proof.Proof.Gen.ReferenceIdeal
import proofs.«119960_j71159018160768_2_alg».proof.Proof.Gen.ReferenceIdeal.Run
import proofs.«119960_j71159018160768_2_alg».proof.Proof.Gen.ReferenceIdeal.Read
import proofs.«119960_j71159018160768_2_alg».proof.Proof.Gen.Pre_finite_inputs
import proofs.«119960_j71159018160768_2_alg».proof.Proof.FrameKRun
import proofs.«119960_j71159018160768_2_alg».proof.Proof.FrameKIRun
import proofs.«119960_j71159018160768_2_alg».proof.Proof.KernelValue
import proofs.«119960_j71159018160768_2_alg».proof.Proof.RefValue
import proofs.«119960_j71159018160768_2_alg».proof.Proof.LossLaws
import proofs.«119960_j71159018160768_2_alg».proof.Proof.FiniteLatents
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result is the loss in the kernel's arrangement, the reference's the loss in the reference's, of
    arguments that agree; for finite latent arrays these are one extended real. -/
theorem algebraic : Cert.algebraic_KernelIdeal_ReferenceIdeal := by
  intro m ρ m' ρ' hpre hagree
  refine ⟨fun c => fun _ => Cert.Tcvae.lossK (Cert.Tcvae.Accum.tg m c) (Cert.Tcvae.Accum.xm m c) (Cert.Tcvae.Accum.zm m c) (Cert.Tcvae.Accum.lv m c),
    Cert.Tcvae.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, Cert.Tcvae.Ref.ref_value, (hagree c).1, (hagree c).2.1, (hagree c).2.2.2.1,
    (hagree c).2.2.2.2]
  funext _
  exact (Cert.Tcvae.lossK_eq_loss _ _ _ _ (Cert.Tcvae.Finite.latents_real m hpre c).1
    (Cert.Tcvae.Finite.latents_real m hpre c).2).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
